-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S2x800000 : Shape := ⟨2, ![2, 800000]⟩
abbrev S50000 : Shape := ⟨1, ![50000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S64x2 .f32) (main_arg8 : FVec F S2 .f32) (main_v33 : IVec S_ 1) : IVec S_ 1 :=
  let main_v34 : FVec F S64x2 .f32 := Host.absf main_arg7
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x2 .f32) (main_arg8 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S50000x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : FVec F S64x2 .f32) (main_arg8 : FVec F S2 .f32) (main_arg9 : IVec S2x800000 32) (main_arg10 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S50000x64 : Shape := ⟨2, ![50000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x64 : Shape := ⟨2, ![2000, 64]⟩
abbrev S850000x64 : Shape := ⟨2, ![850000, 64]⟩
abbrev S1x64 : Shape := ⟨2, ![1, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S1x2 : Shape := ⟨2, ![1, 2]⟩
abbrev S512x2 : Shape := ⟨2, ![512, 2]⟩

abbrev nBuf : Space → Nat
  | .hbm => 124
  | .vmem => 26
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S2x800000, .i32⟩
  | .hbm, ⟨10, _⟩ => ⟨S50000, .i32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x64, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x64, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S850000x1, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S850000x1, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x64, .f32⟩
  | .hbm, ⟨98, _⟩ => ⟨S850000x64, .f32⟩
  | .hbm, ⟨99, _⟩ => ⟨S850000x64, .f32⟩
  | .hbm, ⟨100, _⟩ => ⟨S_, .f32⟩
  | .hbm, ⟨101, _⟩ => ⟨S50000x64, .f32⟩
  | .hbm, ⟨102, _⟩ => ⟨S850000x1, .i32⟩
  | .hbm, ⟨103, _⟩ => ⟨S50000x64, .f32⟩
  | .hbm, ⟨104, _⟩ => ⟨S1x64, .f32⟩
  | .hbm, ⟨105, _⟩ => ⟨S50000x64, .f32⟩
  | .hbm, ⟨106, _⟩ => ⟨S_, .f32⟩
  | .hbm, ⟨107, _⟩ => ⟨S512x64, .f32⟩
  | .hbm, ⟨108, _⟩ => ⟨S50000x1, .i32⟩
  | .hbm, ⟨109, _⟩ => ⟨S512x64, .f32⟩
  | .hbm, ⟨110, _⟩ => ⟨S_, .f32⟩
  | .hbm, ⟨111, _⟩ => ⟨S50000, .f32⟩
  | .hbm, ⟨112, _⟩ => ⟨S_, .f32⟩
  | .hbm, ⟨113, _⟩ => ⟨S512, .f32⟩
  | .hbm, ⟨114, _⟩ => ⟨S50000x1, .i32⟩
  | .hbm, ⟨115, _⟩ => ⟨S512, .f32⟩
  | .hbm, ⟨116, _⟩ => ⟨S_, .f32⟩
  | .hbm, ⟨117, _⟩ => ⟨S512, .f32⟩
  | .hbm, ⟨118, _⟩ => ⟨S512, .f32⟩
  | .hbm, ⟨119, _⟩ => ⟨S512x1, .f32⟩
  | .hbm, ⟨120, _⟩ => ⟨S512x64, .f32⟩
  | .hbm, ⟨121, _⟩ => ⟨S512x64, .f32⟩
  | .hbm, ⟨122, _⟩ => ⟨S1x2, .f32⟩
  | .hbm, ⟨123, _⟩ => ⟨S512x2, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S64x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S64x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | .local _ .vmem, ⟨22, _⟩ => ⟨S512x64, .f32⟩
  | .local _ .vmem, ⟨23, _⟩ => ⟨S64x2, .f32⟩
  | .local _ .vmem, ⟨24, _⟩ => ⟨S1x2, .f32⟩
  | .local _ .vmem, ⟨25, _⟩ => ⟨S512x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S2_S1x2 : S2.ShapeCasts S1x2
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x64_S64x64_S2000x64_1_0_0_1_n_n_wf : DotDims.WF S2000x64 S64x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x2_S512x2_1_0_0_1_n_n_wf : DotDims.WF S512x64 S64x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S512x64.size a
  hwx4_0 : ∀ i : grid4.Coords, EltTy.bits .f32 = 32 ∨ (Rect.block (s := S512x64) S512x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x2.size a ≤ S512x2.size a
  hwx4_3 : ∀ i : grid4.Coords, EltTy.bits .f32 = 32 ∨ (Rect.block (s := S512x2) S512x2.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S512x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S512x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 203
  | .vmem => 0
  | .smem => 0
  | _ => 0

abbrev hbmTy0_0 (i : Nat) : BufTy := match i % 128 with
  | 0 => ⟨S50000x64, .f32⟩
  | 1 => ⟨S64x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x2, .f32⟩
  | 8 => ⟨S2, .f32⟩
  | 9 => ⟨S2x800000, .i32⟩
  | 10 => ⟨S50000, .i32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S50000x64, .f32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S850000x1, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x64, .f32⟩
  | 62 => ⟨S850000x64, .f32⟩
  | 63 => ⟨S850000x64, .f32⟩
  | 64 => ⟨S_, .f32⟩
  | 65 => ⟨S50000x64, .f32⟩
  | 66 => ⟨S850000x1, .i32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S50000x64, .f32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S850000x1, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x64, .f32⟩
  | 118 => ⟨S850000x64, .f32⟩
  | 119 => ⟨S850000x64, .f32⟩
  | 120 => ⟨S_, .f32⟩
  | 121 => ⟨S50000x64, .f32⟩
  | 122 => ⟨S850000x1, .i32⟩
  | 123 => ⟨S50000x64, .f32⟩
  | 124 => ⟨S1x64, .f32⟩
  | 125 => ⟨S50000x64, .f32⟩
  | 126 => ⟨S50000x64, .f32⟩
  | 127 => ⟨S_, .f32⟩
  | _ => ⟨S50000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S850000, .f32⟩
  | 5 => ⟨S_, .f32⟩
  | 6 => ⟨S50000, .f32⟩
  | 7 => ⟨S850000x1, .i32⟩
  | 8 => ⟨S50000, .f32⟩
  | 9 => ⟨S_, .f32⟩
  | 10 => ⟨S50000, .f32⟩
  | 11 => ⟨S50000, .i1⟩
  | 12 => ⟨S50000, .f32⟩
  | 13 => ⟨S_, .f32⟩
  | 14 => ⟨S_, .f32⟩
  | 15 => ⟨S50000, .f32⟩
  | 16 => ⟨S50000, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S850000, .f32⟩
  | 36 => ⟨S850000x1, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000x64, .f32⟩
  | 46 => ⟨S850000x64, .f32⟩
  | 47 => ⟨S850000x64, .f32⟩
  | 48 => ⟨S_, .f32⟩
  | 49 => ⟨S50000x64, .f32⟩
  | 50 => ⟨S850000x1, .i32⟩
  | 51 => ⟨S50000x64, .f32⟩
  | 52 => ⟨S1x64, .f32⟩
  | 53 => ⟨S50000x64, .f32⟩
  | 54 => ⟨S50000x64, .f32⟩
  | 55 => ⟨S_, .f32⟩
  | 56 => ⟨S512x64, .f32⟩
  | 57 => ⟨S50000x1, .i32⟩
  | 58 => ⟨S512x64, .f32⟩
  | 59 => ⟨S_, .f32⟩
  | 60 => ⟨S50000, .f32⟩
  | 61 => ⟨S_, .f32⟩
  | 62 => ⟨S512, .f32⟩
  | 63 => ⟨S50000x1, .i32⟩
  | 64 => ⟨S512, .f32⟩
  | 65 => ⟨S_, .f32⟩
  | 66 => ⟨S512, .f32⟩
  | 67 => ⟨S512, .f32⟩
  | 68 => ⟨S512x1, .f32⟩
  | 69 => ⟨S512x64, .f32⟩
  | 70 => ⟨S512x64, .f32⟩
  | 71 => ⟨S512x2, .f32⟩
  | 72 => ⟨S1x2, .f32⟩
  | 73 => ⟨S512x2, .f32⟩
  | 74 => ⟨S512x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v56 : Ref sig .tc := ⟨.hbm, 88, rfl⟩
abbrev main_c_13 : Ref sig .tc := ⟨.hbm, 89, rfl⟩
abbrev main_v57 : Ref sig .tc := ⟨.hbm, 90, rfl⟩
abbrev main_v58 : Ref sig .tc := ⟨.hbm, 91, rfl⟩
abbrev main_c_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_17 : Ref sig .tc := ⟨.hbm, 109, rfl⟩
abbrev main_v73 : Ref sig .tc := ⟨.hbm, 110, rfl⟩
abbrev main_v74 : Ref sig .tc := ⟨.hbm, 111, rfl⟩
abbrev main_c_18 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_19 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_call3_cst : Ref sig .tc := ⟨.hbm, 127, rfl⟩
abbrev main_call3_v0 : Ref sig .tc := ⟨.hbm, 128, rfl⟩
abbrev main_v88 : Ref sig .tc := ⟨.hbm, 129, rfl⟩
abbrev main_v89 : Ref sig .tc := ⟨.hbm, 130, rfl⟩
abbrev main_cst_20 : Ref sig .tc := ⟨.hbm, 131, rfl⟩
abbrev main_v90 : Ref sig .tc := ⟨.hbm, 132, rfl⟩
abbrev main_cst_21 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_22 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_23 : Ref sig .tc := ⟨.hbm, 141, rfl⟩
abbrev main_call4_v0 : Ref sig .tc := ⟨.hbm, 142, rfl⟩
abbrev main_call4_v1 : Ref sig .tc := ⟨.hbm, 143, rfl⟩
abbrev main_v97 : Ref sig .tc := ⟨.hbm, 144, rfl⟩
abbrev main_c_24 : Ref sig .tc := ⟨.hbm, 145, rfl⟩
abbrev main_v98 : Ref sig .tc := ⟨.hbm, 146, rfl⟩
abbrev main_v99 : Ref sig .tc := ⟨.hbm, 147, rfl⟩
abbrev main_c_25 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_c_26 : Ref sig .tc := ⟨.hbm, 154, rfl⟩
abbrev main_v105 : Ref sig .tc := ⟨.hbm, 155, rfl⟩
abbrev main_v106 : Ref sig .tc := ⟨.hbm, 156, rfl⟩
abbrev main_c_27 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_c_28 : Ref sig .tc := ⟨.hbm, 165, rfl⟩
abbrev main_v114 : Ref sig .tc := ⟨.hbm, 166, rfl⟩
abbrev main_v115 : Ref sig .tc := ⟨.hbm, 167, rfl⟩
abbrev main_c_29 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_30 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_31 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_32 : Ref sig .tc := ⟨.hbm, 187, rfl⟩
abbrev main_v132 : Ref sig .tc := ⟨.hbm, 188, rfl⟩
abbrev main_cst_33 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_cst_34 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x2_S512x2_1_0_0_1_n_n_wf : DotDims.WF S512x64 S64x2 S512x2 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

class Facts : Prop extends Facts₀ where

variable [Facts]
-- ==== Proof.KRun.lean ====
/-
  The kernel program's run with its result named. The program is twelve segments — seven stretches of host operations
  and five grid-launched regions — and the contents of every unscoped buffer at each boundary between them is a fold from
  the launch memory: a stretch applies its operations, a region replaces its arrays by what its write-backs leave. Every
  weakly fair execution terminates, faults nowhere, and ends with every unscoped buffer at the last boundary's contents;
  read at the result buffer that is the result, read at an argument it is the argument as launched.
-/
import proofs.«161394_j27771258536143_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; its result buffer ends at the last
    boundary's contents and its eleven argument arrays as launched: the launch over the twelve segments, the last thread
    state read against the final state, buffer by buffer. -/
theorem run_named : θ_run defs (onTc (τ := τ) (main (F := F))) ⟨m, fun _ => 0, ρ⟩ (fun r => ∀ c : Dev nD,
      r.2.mem ((c.tc : Thread nD τ).loc main_v89) = W12 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v89 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.KRun

end
-- ==== Proof.GcnSpec.lean ====
/-
  The dense pieces of a three-layer graph convolution over 50000 nodes with 64 features, pooled into 512 graphs and read
  out through a 64 × 2 linear layer, each as ONE whole-array function on the extended reals, index by index:
  the product X · W of a 50000 × 64 array with a 64 × 64 array; the same product taken of max(A + b, 0), the row b of
  length 64 added to every row of A; A + b alone; and the read-out P · W + b of a 512 × 64 array through a 64 × 2 array
  and a row of length 2. The zero of the maximum is the float word 0x00000000 read as an extended real.
  Sums over the 64 features are finite sums of products; no order of summation is fixed, and none is needed.
-/
import Idealize.ShloMosaic.PureOps.Ideal
import Idealize.ShloMosaic.Lib.ValueIdx

noncomputable section

namespace Cert.GcnSpec

open Idealize.ShloMosaic Idealize.ShloMosaic.ValueIdx
open scoped BigOperators

/-- Nodes × features. -/
abbrev SN : Shape := ⟨2, ![50000, 64]⟩
/-- A layer's weights. -/
abbrev SW : Shape := ⟨2, ![64, 64]⟩
/-- A layer's bias row. -/
abbrev SB : Shape := ⟨1, ![64]⟩
/-- Graphs × features. -/
abbrev SP : Shape := ⟨2, ![512, 64]⟩
/-- The read-out weights. -/
abbrev SWL : Shape := ⟨2, ![64, 2]⟩
/-- The read-out bias row. -/
abbrev SBL : Shape := ⟨1, ![2]⟩
/-- Graphs × outputs. -/
abbrev SO : Shape := ⟨2, ![512, 2]⟩

/-- (X · W)(r, j) = Σₖ X(r, k) · W(k, j). -/
def matW (x : SN.Idx → EReal) (w : SW.Idx → EReal) : SN.Idx → EReal :=
  fun i => ∑ k : Fin 64, x (ix2 ⟨(i 0).val, idx2_lt0 i⟩ k) * w (ix2 k ⟨(i 1).val, idx2_lt1 i⟩)

theorem matW_apply (x : SN.Idx → EReal) (w : SW.Idx → EReal) (r : Fin 50000) (j : Fin 64) :
    matW x w (ix2 r j) = ∑ k : Fin 64, x (ix2 r k) * w (ix2 k j) := rfl

/-- (max(A + b, 0) · W)(r, j) = Σₖ max(A(r, k) + b(k), 0) · W(k, j). -/
def reluMatW (a : SN.Idx → EReal) (b : SB.Idx → EReal) (w : SW.Idx → EReal) : SN.Idx → EReal :=
  fun i => ∑ k : Fin 64, max (a (ix2 ⟨(i 0).val, idx2_lt0 i⟩ k) + b (ix1 k)) (Ideal.ofBits .f32 0x00000000#32)
    * w (ix2 k ⟨(i 1).val, idx2_lt1 i⟩)

theorem reluMatW_apply (a : SN.Idx → EReal) (b : SB.Idx → EReal) (w : SW.Idx → EReal) (r : Fin 50000) (j : Fin 64) :
    reluMatW a b w (ix2 r j)
      = ∑ k : Fin 64, max (a (ix2 r k) + b (ix1 k)) (Ideal.ofBits .f32 0x00000000#32) * w (ix2 k j) := rfl

/-- (A + b)(r, j) = A(r, j) + b(j). -/
def addRow (a : SN.Idx → EReal) (b : SB.Idx → EReal) : SN.Idx → EReal :=
  fun i => a i + b (ix1 ⟨(i 1).val, idx2_lt1 i⟩)

theorem addRow_apply (a : SN.Idx → EReal) (b : SB.Idx → EReal) (r : Fin 50000) (j : Fin 64) :
    addRow a b (ix2 r j) = a (ix2 r j) + b (ix1 j) := rfl

/-- (P · W + b)(g, o) = Σₖ P(g, k) · W(k, o) + b(o). -/
def readOut (p : SP.Idx → EReal) (w : SWL.Idx → EReal) (b : SBL.Idx → EReal) : SO.Idx → EReal :=
  fun i => (∑ k : Fin 64, p (ix2 ⟨(i 0).val, idx2_lt0 i⟩ k) * w (ix2 k ⟨(i 1).val, idx2_lt1 i⟩))
    + b (ix1 ⟨(i 1).val, idx2_lt1 i⟩)

theorem readOut_apply (p : SP.Idx → EReal) (w : SWL.Idx → EReal) (b : SBL.Idx → EReal) (g : Fin 512) (o : Fin 2) :
    readOut p w b (ix2 g o) = (∑ k : Fin 64, p (ix2 g k) * w (ix2 k o)) + b (ix1 o) := rfl

/-- A 1 × n array read as a row of length n. -/
def rowOf {n : Nat} (b : (⟨2, ![1, n]⟩ : Shape).Idx → EReal) : (⟨1, ![n]⟩ : Shape).Idx → EReal :=
  fun j => b (ix2 (0 : Fin 1) (j 0))

theorem rowOf_apply {n : Nat} (b : (⟨2, ![1, n]⟩ : Shape).Idx → EReal) (k : Fin n) :
    rowOf b (ix1 k) = b (ix2 (0 : Fin 1) k) := rfl

end Cert.GcnSpec

end
-- ==== Proof.GcnHost.lean ====
/-
  The sparse pieces of a graph convolution over 50000 nodes and 800000 edges, as whole-array functions built from the host
  operations of the reference program, and the whole network as ONE function of its eleven arguments.
  With src and dst the two rows of the edge list, each extended by one self-loop per node (850000 messages in all), deg the
  number of messages into each node, dinv = deg^(-1/2) where deg > 0 and 0 elsewhere, norm(e) = dinv(src e) · dinv(dst e):
  the aggregation of a 50000 × 64 array H sums, into row dst e, the row norm(e) · H(src e), over all messages e; the pooling
  of a 50000 × 64 array sums the rows of each of 512 graphs and divides by max(size of the graph, 1).
  They are carried as the host operations themselves — slice, join, gather, product, accumulating scatter, quotient —
  applied to their operands; nothing here opens one of them. An index below zero is wrapped by 50000 before a gather, as
  the program does. The network is three aggregations, each of a dense product, the first two followed by max(· + b, 0),
  the last by its bias row, then pooling and the read-out; it is stated twice, with the dense pieces as the host's own
  operations (`wholeHost`) and as the sums of Cert.GcnSpec (`whole`).
-/
import proofs.«161394_j27771258536143_1_alg».proof.Proof.Gen.ReferenceIdeal
import proofs.«161394_j27771258536143_1_alg».proof.Proof.GcnSpec
import Idealize.ShloMosaic.PureOps.Ideal

noncomputable section

namespace Cert.GcnHost

open Cert.ReferenceIdeal Cert.ReferenceIdeal.Gen Idealize.ShloMosaic

/-- Row `r` of the edge list followed by the node numbers 0 … 49999: 850000 message ends. -/
def srcOf (e : IVec S2x800000 32) : IVec S850000 32 :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

def dstOf (e : IVec S2x800000 32) : IVec S850000 32 :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- An index list with its negative entries wrapped by 50000, as a column of index vectors. -/
def wrapCol (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The number of messages into each node: ones accumulated at the destinations. -/
def degOf (d : IVec S850000 32) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32))

/-- deg^(-1/2) where deg > 0, and 0 elsewhere. -/
def dinvOf (d : IVec S850000 32) : FVec Ideal S50000 .f32 :=
  select (cmpf .ogt (degOf d) (broadcastInDim S50000 ![] bcast_S_S50000 (constant (F := Ideal) S_ .f32 0x00000000#32)))
    (Host.rsqrt (F := Ideal) (degOf d))
    (broadcastInDim S50000 ![] bcast_S_S50000 (id (constant (F := Ideal) S_ .f32 0x00000000#32)))

/-- norm(e) = dinv(src e) · dinv(dst e). -/
def normOf (s d : IVec S850000 32) : FVec Ideal S850000 .f32 :=
  mulf (Host.gather gather_S50000_S850000x1_S850000_n_0_n_n_0_1_1 (dinvOf d) (wrapCol s))
    (Host.gather gather_S50000_S850000x1_S850000_n_0_n_n_0_1_1 (dinvOf d) (wrapCol d))

/-- The aggregation along given message ends and a given normalisation: the zero array, accumulated at the destination
    rows with the gathered source rows scaled by the messages' normalisation. -/
def aggOf (n : FVec Ideal S850000 .f32) (s d : IVec S850000 32) (h : FVec Ideal S50000x64 .f32) : FVec Ideal S50000x64 .f32 :=
  Host.scatterAdd (F := Ideal) scatter_S50000x64_S850000x1_S850000x64_1_0_0_1
    (broadcastInDim S50000x64 ![] bcast_S_S50000x64 (constant (F := Ideal) S_ .f32 0x00000000#32))
    (broadcastInDim S850000x1 ![0] bcast_S850000_S850000x1_0 d)
    (mulf (broadcastInDim S850000x64 ![0, 1] bcast_S850000x1_S850000x64_0_1 (broadcastInDim S850000x1 ![0] bcast_S850000_S850000x1_0 n))
      (Host.gather gather_S50000x64_S850000x1_S850000x64_1_0_n_n_0_1_164 h (wrapCol s)))

/-- The aggregation of a 50000 × 64 array along the messages of the edge list `e`. -/
def agg (e : IVec S2x800000 32) (h : FVec Ideal S50000x64 .f32) : FVec Ideal S50000x64 .f32 :=
  aggOf (normOf (srcOf e) (dstOf e)) (srcOf e) (dstOf e) h

/-- The mean of the rows of each graph: the rows summed into their graph's row, divided by the graph's size (at least one). -/
def pool (g : IVec S50000 32) (h : FVec Ideal S50000x64 .f32) : FVec Ideal S512x64 .f32 :=
  Host.divf (F := Ideal)
    (Host.scatterAdd (F := Ideal) scatter_S512x64_S50000x1_S50000x64_1_0_0_1
      (broadcastInDim S512x64 ![] bcast_S_S512x64 (constant (F := Ideal) S_ .f32 0x00000000#32))
      (broadcastInDim S50000x1 ![0] bcast_S50000_S50000x1_0 g) h)
    (broadcastInDim S512x64 ![0, 1] bcast_S512x1_S512x64_0_1 (broadcastInDim S512x1 ![0] bcast_S512_S512x1_0
      (maximumf
        (Host.scatterAdd (F := Ideal) scatter_S512_S50000x1_S50000_n_0_0_1
          (broadcastInDim S512 ![] bcast_S_S512 (constant (F := Ideal) S_ .f32 0x00000000#32))
          (broadcastInDim S50000x1 ![0] bcast_S50000_S50000x1_0 g)
          (broadcastInDim S50000 ![] bcast_S_S50000 (constant (F := Ideal) S_ .f32 0x3F800000#32)))
        (broadcastInDim S512 ![] bcast_S_S512 (constant (F := Ideal) S_ .f32 0x3F800000#32)))))

/-! ## The dense pieces as the reference's host operations -/

/-- X · W as the host's contraction. -/
def hostProd (x : FVec Ideal S50000x64 .f32) (w : FVec Ideal S64x64 .f32) : FVec Ideal S50000x64 .f32 :=
  Host.dotGeneral (F := Ideal) dot_S50000x64_S64x64_S50000x64_1_0_0_1_n_n none x w

/-- A + b, the row broadcast over the nodes. -/
def hostAddRow (a : FVec Ideal S50000x64 .f32) (b : FVec Ideal S64 .f32) : FVec Ideal S50000x64 .f32 :=
  addf a (broadcastInDim S50000x64 ![0, 1] bcast_S1x64_S50000x64_0_1 (broadcastInDim S1x64 ![1] bcast_S64_S1x64_1 b))

/-- max(A + b, 0) · W. -/
def hostReluProd (a : FVec Ideal S50000x64 .f32) (b : FVec Ideal S64 .f32) (w : FVec Ideal S64x64 .f32) : FVec Ideal S50000x64 .f32 :=
  hostProd (maximumf (hostAddRow a b) (broadcastInDim S50000x64 ![] bcast_S_S50000x64 (constant (F := Ideal) S_ .f32 0x00000000#32))) w

/-- P · W + b, the row broadcast over the graphs. -/
def hostReadOut (p : FVec Ideal S512x64 .f32) (w : FVec Ideal S64x2 .f32) (b : FVec Ideal S2 .f32) : FVec Ideal S512x2 .f32 :=
  addf (Host.dotGeneral (F := Ideal) dot_S512x64_S64x2_S512x2_1_0_0_1_n_n none p w)
    (broadcastInDim S512x2 ![0, 1] bcast_S1x2_S512x2_0_1 (broadcastInDim S1x2 ![1] bcast_S2_S1x2_1 b))

/-! ## The whole network -/

/-- The network with its dense pieces as host operations: what the reference program computes, operation by operation. -/
def wholeHost (x : FVec Ideal S50000x64 .f32) (w1 : FVec Ideal S64x64 .f32) (b1 : FVec Ideal S64 .f32) (w2 : FVec Ideal S64x64 .f32)
    (b2 : FVec Ideal S64 .f32) (w3 : FVec Ideal S64x64 .f32) (b3 : FVec Ideal S64 .f32) (wl : FVec Ideal S64x2 .f32)
    (bl : FVec Ideal S2 .f32) (e : IVec S2x800000 32) (g : IVec S50000 32) : FVec Ideal S512x2 .f32 :=
  hostReadOut
    (pool g (hostAddRow (agg e (hostReluProd (agg e (hostReluProd (agg e (hostProd x w1)) b1 w2)) b2 w3)) b3))
    wl bl

/-- The network with its dense pieces as sums over the 64 features. -/
def whole (x : FVec Ideal S50000x64 .f32) (w1 : FVec Ideal S64x64 .f32) (b1 : FVec Ideal S64 .f32) (w2 : FVec Ideal S64x64 .f32)
    (b2 : FVec Ideal S64 .f32) (w3 : FVec Ideal S64x64 .f32) (b3 : FVec Ideal S64 .f32) (wl : FVec Ideal S64x2 .f32)
    (bl : FVec Ideal S2 .f32) (e : IVec S2x800000 32) (g : IVec S50000 32) : FVec Ideal S512x2 .f32 :=
  GcnSpec.readOut
    (pool g (GcnSpec.addRow (agg e (GcnSpec.reluMatW (agg e (GcnSpec.reluMatW (agg e (GcnSpec.matW x w1)) b1 w2)) b2 w3)) b3))
    wl bl

end Cert.GcnHost

end
-- ==== Proof.KHost.lean ====
/-
  The kernel program's stretches of host operations, read one stretch at a time over ANY contents W of the buffers
  before the stretch: a buffer the stretch does not write keeps its contents, and a buffer it writes holds the composition
  of the stretch's operations over the contents of the buffers the stretch reads. The compositions are the sparse pieces of
  the graph convolution: the two ends of the 850000 messages, the degree's positivity and inverse square root, the
  messages' normalisation, the aggregation of a 50000 × 64 array along the messages, the mean over each graph, and the
  bias rows relaid from length n to 1 × n.
-/
import proofs.«161394_j27771258536143_1_alg».proof.Proof.Gen.KernelIdeal.Launch
import proofs.«161394_j27771258536143_1_alg».proof.Proof.GcnHost
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

/-! ## What each stretch writes, and that it writes nothing else -/

/-- The buffers stretch `hostOps0` writes, in order. -/
abbrev wr0 : List (Ref sig .tc) := [main_v0, main_v1, main_v2, main_v3, main_v4, main_v5, main_v6, main_cst, main_v7, main_cst_0, main_v8, main_v9, main_v10, main_cst_1, main_v11, main_v12, main_v13, main_cst_2]

theorem wsub0 : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- A buffer outside that list keeps its contents through the stretch. -/
theorem keep0 (W : Valuation τ sig (Elt Ideal)) (b : Ref sig .tc) (hb : b ∉ wr0) :
    after hostOps0 W (Proc.devRef .tc b) = W (Proc.devRef .tc b) :=
  after_of_writes_sub hostOps0 W wsub0 hb

/-- The buffers stretch `hostOps0_1` writes, in order. -/
abbrev wr01 : List (Ref sig .tc) := [main_call0_v0, main_call0_v1, main_v14]

theorem wsub01 : (hostOps0_1 : List (HloOp τ sig (Elt Ideal))).Forall fun op => op.writes ⊆ (wr01.map (Proc.devRef (τ := τ) .tc)).toFinset := by
  simp only [hostOps0_1, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- A buffer outside that list keeps its contents through the stretch. -/
theorem keep01 (W : Valuation τ sig (Elt Ideal)) (b : Ref sig .tc) (hb : b ∉ wr01) :
    after hostOps0_1 W (Proc.devRef .tc b) = W (Proc.devRef .tc b) :=
  after_of_writes_sub hostOps0_1 W wsub01 hb

/-- The buffers stretch `hostOps0_2` writes, in order. -/
abbrev wr02 : List (Ref sig .tc) := [main_c, main_v15, main_v16, main_c_3, main_v17, main_v18, main_v19, main_v20, main_v21, main_c_4, main_v22, main_v23, main_c_5, main_v24, main_v25, main_v26, main_v27, main_v28, main_v29]

theorem wsub02 : (hostOps0_2 : List (HloOp τ sig (Elt Ideal))).Forall fun op => op.writes ⊆ (wr02.map (Proc.devRef (τ := τ) .tc)).toFinset := by
  simp only [hostOps0_2, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- A buffer outside that list keeps its contents through the stretch. -/
theorem keep02 (W : Valuation τ sig (Elt Ideal)) (b : Ref sig .tc) (hb : b ∉ wr02) :
    after hostOps0_2 W (Proc.devRef .tc b) = W (Proc.devRef .tc b) :=
  after_of_writes_sub hostOps0_2 W wsub02 hb

/-- The buffers stretch `hostOps1` writes, in order. -/
abbrev wr1 : List (Ref sig .tc) := [main_v31, main_c_6, main_v32, main_v33, main_c_7, main_v34, main_v35, main_v36, main_v37, main_v38, main_v39, main_v40, main_cst_8, main_v41, main_v42, main_v43, main_v44]

theorem wsub1 : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- A buffer outside that list keeps its contents through the stretch. -/
theorem keep1 (W : Valuation τ sig (Elt Ideal)) (b : Ref sig .tc) (hb : b ∉ wr1) :
    after hostOps1 W (Proc.devRef .tc b) = W (Proc.devRef .tc b) :=
  after_of_writes_sub hostOps1 W wsub1 hb

/-- The buffers stretch `hostOps2` writes, in order. -/
abbrev wr2 : List (Ref sig .tc) := [main_v46, main_c_9, main_v47, main_v48, main_c_10, main_v49, main_v50, main_v51, main_v52, main_v53, main_v54, main_v55, main_cst_11, main_v56, main_v57, main_v58, main_v59]

theorem wsub2 : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- A buffer outside that list keeps its contents through the stretch. -/
theorem keep2 (W : Valuation τ sig (Elt Ideal)) (b : Ref sig .tc) (hb : b ∉ wr2) :
    after hostOps2 W (Proc.devRef .tc b) = W (Proc.devRef .tc b) :=
  after_of_writes_sub hostOps2 W wsub2 hb

/-- The buffers stretch `hostOps3` writes, in order. -/
abbrev wr3 : List (Ref sig .tc) := [main_v61, main_c_12, main_v62, main_v63, main_c_13, main_v64, main_v65, main_v66, main_v67, main_v68, main_v69, main_v70, main_cst_14, main_v71, main_v72, main_v73, main_v74]

theorem wsub3 : (hostOps3 : List (HloOp τ sig (Elt Ideal))).Forall fun op => op.writes ⊆ (wr3.map (Proc.devRef (τ := τ) .tc)).toFinset := by
  simp only [hostOps3, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- A buffer outside that list keeps its contents through the stretch. -/
theorem keep3 (W : Valuation τ sig (Elt Ideal)) (b : Ref sig .tc) (hb : b ∉ wr3) :
    after hostOps3 W (Proc.devRef .tc b) = W (Proc.devRef .tc b) :=
  after_of_writes_sub hostOps3 W wsub3 hb

/-- The buffers stretch `hostOps4` writes, in order. -/
abbrev wr4 : List (Ref sig .tc) := [main_cst_15, main_v76, main_v77, main_v78, main_cst_16, main_v79, main_cst_17, main_v80, main_v81, main_v82, main_cst_18, main_v83, main_v84, main_v85, main_v86, main_v87, main_v88]

theorem wsub4 : (hostOps4 : List (HloOp τ sig (Elt Ideal))).Forall fun op => op.writes ⊆ (wr4.map (Proc.devRef (τ := τ) .tc)).toFinset := by
  simp only [hostOps4, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))

/-- A buffer outside that list keeps its contents through the stretch. -/
theorem keep4 (W : Valuation τ sig (Elt Ideal)) (b : Ref sig .tc) (hb : b ∉ wr4) :
    after hostOps4 W (Proc.devRef .tc b) = W (Proc.devRef .tc b) :=
  after_of_writes_sub hostOps4 W wsub4 hb

/-! ## What the stretches compute -/

/-- The source ends of the messages: row 0 of the edge list, then one self-loop per node. -/
theorem read0_src (W : Valuation τ sig (Elt Ideal)) :
    after hostOps0 W (Proc.devRef .tc main_v3) = GcnHost.srcOf (W (Proc.devRef .tc main_arg9)) := by
  after_results_simp <;> rfl

/-- The destination ends: row 1 of the edge list, then one self-loop per node. -/
theorem read0_dst (W : Valuation τ sig (Elt Ideal)) :
    after hostOps0 W (Proc.devRef .tc main_v6) = GcnHost.dstOf (W (Proc.devRef .tc main_arg9)) := by
  after_results_simp <;> rfl

/-- Where the degree is positive. -/
theorem read0_pos (W : Valuation τ sig (Elt Ideal)) :
    after hostOps0 W (Proc.devRef .tc main_v12)
      = cmpf .ogt (GcnHost.degOf (GcnHost.dstOf (W (Proc.devRef .tc main_arg9)))) (broadcastInDim S50000 ![] bcast_S_S50000 (constant (F := Ideal) S_ .f32 0x00000000#32)) := by
  after_results_simp <;> rfl

/-- The degree's inverse square root. -/
theorem read0_rsqrt (W : Valuation τ sig (Elt Ideal)) :
    after hostOps0 W (Proc.devRef .tc main_v13) = Host.rsqrt (F := Ideal) (GcnHost.degOf (GcnHost.dstOf (W (Proc.devRef .tc main_arg9)))) := by
  after_results_simp <;> rfl

/-- The zero that replaces the inverse square root where the degree is not positive. -/
theorem read0_zero (W : Valuation τ sig (Elt Ideal)) :
    after hostOps0 W (Proc.devRef .tc main_cst_2) = constant (F := Ideal) S_ .f32 0x00000000#32 := by
  after_results_simp <;> rfl

/-- The choice between the two, node by node. -/
theorem read01_dinv (W : Valuation τ sig (Elt Ideal)) :
    after hostOps0_1 W (Proc.devRef .tc main_v14)
      = select (W (Proc.devRef .tc main_v12)) (W (Proc.devRef .tc main_v13)) (broadcastInDim S50000 ![] bcast_S_S50000 (id (W (Proc.devRef .tc main_cst_2)))) := by
  after_results_simp <;> rfl

/-- The messages' normalisation: the chosen value at the source end times the chosen value at the destination end. -/
theorem read02_norm (W : Valuation τ sig (Elt Ideal)) :
    after hostOps0_2 W (Proc.devRef .tc main_v29)
      = (mulf (F := Ideal) (Host.gather gather_S50000_S850000x1_S850000_n_0_n_n_0_1_1 (W (Proc.devRef .tc main_v14) : FVec Ideal S50000 .f32) (GcnHost.wrapCol (W (Proc.devRef .tc main_v3))))
          (Host.gather gather_S50000_S850000x1_S850000_n_0_n_n_0_1_1 (W (Proc.devRef .tc main_v14) : FVec Ideal S50000 .f32) (GcnHost.wrapCol (W (Proc.devRef .tc main_v6)))) : FVec Ideal S850000 .f32) := by
  after_results_simp <;> rfl

/-- The aggregation of the array in `main_v30` along the messages. -/
theorem read1_agg (W : Valuation τ sig (Elt Ideal)) :
    after hostOps1 W (Proc.devRef .tc main_v43)
      = GcnHost.aggOf (W (Proc.devRef .tc main_v29)) (W (Proc.devRef .tc main_v3)) (W (Proc.devRef .tc main_v6)) (W (Proc.devRef .tc main_v30)) := by
  after_results_simp <;> rfl

/-- The bias row relaid from length 64 to 1 × 64. -/
theorem read1_row (W : Valuation τ sig (Elt Ideal)) :
    after hostOps1 W (Proc.devRef .tc main_v44) = shapeCast S1x64 (W (Proc.devRef .tc main_arg2)) shapeCasts_S64_S1x64 := by
  after_results_simp <;> rfl

/-- The aggregation of the array in `main_v45` along the messages. -/
theorem read2_agg (W : Valuation τ sig (Elt Ideal)) :
    after hostOps2 W (Proc.devRef .tc main_v58)
      = GcnHost.aggOf (W (Proc.devRef .tc main_v29)) (W (Proc.devRef .tc main_v3)) (W (Proc.devRef .tc main_v6)) (W (Proc.devRef .tc main_v45)) := by
  after_results_simp <;> rfl

/-- The bias row relaid from length 64 to 1 × 64. -/
theorem read2_row (W : Valuation τ sig (Elt Ideal)) :
    after hostOps2 W (Proc.devRef .tc main_v59) = shapeCast S1x64 (W (Proc.devRef .tc main_arg4)) shapeCasts_S64_S1x64 := by
  after_results_simp <;> rfl

/-- The aggregation of the array in `main_v60` along the messages. -/
theorem read3_agg (W : Valuation τ sig (Elt Ideal)) :
    after hostOps3 W (Proc.devRef .tc main_v73)
      = GcnHost.aggOf (W (Proc.devRef .tc main_v29)) (W (Proc.devRef .tc main_v3)) (W (Proc.devRef .tc main_v6)) (W (Proc.devRef .tc main_v60)) := by
  after_results_simp <;> rfl

/-- The bias row relaid from length 64 to 1 × 64. -/
theorem read3_row (W : Valuation τ sig (Elt Ideal)) :
    after hostOps3 W (Proc.devRef .tc main_v74) = shapeCast S1x64 (W (Proc.devRef .tc main_arg6)) shapeCasts_S64_S1x64 := by
  after_results_simp <;> rfl

/-- The mean over each graph of the array in `main_v75`. -/
theorem read4_pool (W : Valuation τ sig (Elt Ideal)) :
    after hostOps4 W (Proc.devRef .tc main_v87) = GcnHost.pool (W (Proc.devRef .tc main_arg10)) (W (Proc.devRef .tc main_v75)) := by
  after_results_simp <;> rfl

/-- The read-out's bias row relaid from length 2 to 1 × 2. -/
theorem read4_row (W : Valuation τ sig (Elt Ideal)) :
    after hostOps4 W (Proc.devRef .tc main_v88) = shapeCast S1x2 (W (Proc.devRef .tc main_arg8)) shapeCasts_S2_S1x2 := by
  after_results_simp <;> rfl

end Cert.KernelIdeal.KHost

end
-- ==== Proof.KStable.lean ====
/-
  The contents of the kernel program's buffers at the boundaries between its segments, for the buffers that matter:
  an argument array is never written, so at every boundary it holds what it was launched with; the two ends of the
  messages and the messages' normalisation are computed by the first three stretches from the edge list alone and written
  by nothing after, so they hold those values wherever they are read later.
  A boundary's contents are a fold: a stretch of host operations keeps every buffer it does not write, a region keeps
  every buffer that is not one of its arrays. Walking a buffer back across the segments is one such step per segment.
-/
import proofs.«161394_j27771258536143_1_alg».proof.Proof.Gen.KernelIdeal.Frame
import proofs.«161394_j27771258536143_1_alg».proof.Proof.KHost

set_option maxRecDepth 16384

noncomputable section

namespace Cert.KernelIdeal.KStable

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## One step back per segment -/

theorem back1 (b : Ref sig .tc) (h : b ∉ KHost.wr0) : W1 m ρ c (Proc.devRef .tc b) = W0 m ρ c (Proc.devRef .tc b) := KHost.keep0 _ b h
theorem back2 (b : Ref sig .tc) (h : b ∉ KHost.wr01) : W2 m ρ c (Proc.devRef .tc b) = W1 m ρ c (Proc.devRef .tc b) := KHost.keep01 _ b h
theorem back3 (b : Ref sig .tc) (h : b ∉ KHost.wr02) : W3 m ρ c (Proc.devRef .tc b) = W2 m ρ c (Proc.devRef .tc b) := KHost.keep02 _ b h
theorem back4 (b : Ref sig .tc) (h : ∀ w, Pipeline.arrRef spec0 w ≠ b) : W4 m ρ c (Proc.devRef .tc b) = W3 m ρ c (Proc.devRef .tc b) := W4_of_ne m ρ c b h
theorem back5 (b : Ref sig .tc) (h : b ∉ KHost.wr1) : W5 m ρ c (Proc.devRef .tc b) = W4 m ρ c (Proc.devRef .tc b) := KHost.keep1 _ b h
theorem back6 (b : Ref sig .tc) (h : ∀ w, Pipeline.arrRef spec1 w ≠ b) : W6 m ρ c (Proc.devRef .tc b) = W5 m ρ c (Proc.devRef .tc b) := W6_of_ne m ρ c b h
theorem back7 (b : Ref sig .tc) (h : b ∉ KHost.wr2) : W7 m ρ c (Proc.devRef .tc b) = W6 m ρ c (Proc.devRef .tc b) := KHost.keep2 _ b h
theorem back8 (b : Ref sig .tc) (h : ∀ w, Pipeline.arrRef spec2 w ≠ b) : W8 m ρ c (Proc.devRef .tc b) = W7 m ρ c (Proc.devRef .tc b) := W8_of_ne m ρ c b h
theorem back9 (b : Ref sig .tc) (h : b ∉ KHost.wr3) : W9 m ρ c (Proc.devRef .tc b) = W8 m ρ c (Proc.devRef .tc b) := KHost.keep3 _ b h
theorem back10 (b : Ref sig .tc) (h : ∀ w, Pipeline.arrRef spec3 w ≠ b) : W10 m ρ c (Proc.devRef .tc b) = W9 m ρ c (Proc.devRef .tc b) := W10_of_ne m ρ c b h
theorem back11 (b : Ref sig .tc) (h : b ∉ KHost.wr4) : W11 m ρ c (Proc.devRef .tc b) = W10 m ρ c (Proc.devRef .tc b) := KHost.keep4 _ b h

/-! ## The arguments where the segments read them -/

/-- A buffer the first three stretches do not write holds at the first region's entry what it was launched with. -/
theorem launch3 (b : Ref sig .tc) (h0 : b ∉ KHost.wr0) (h1 : b ∉ KHost.wr01) (h2 : b ∉ KHost.wr02) :
    W3 m ρ c (Proc.devRef .tc b) = m ((c : Thread nD τ).loc b) :=
  (back3 m ρ c b h2).trans ((back2 m ρ c b h1).trans (back1 m ρ c b h0))

theorem arg0_3 : W3 m ρ c (Proc.devRef .tc main_arg0) = m ((c : Thread nD τ).loc main_arg0) := launch3 m ρ c _ (by decide) (by decide) (by decide)
theorem arg1_3 : W3 m ρ c (Proc.devRef .tc main_arg1) = m ((c : Thread nD τ).loc main_arg1) := launch3 m ρ c _ (by decide) (by decide) (by decide)
theorem arg2_4 : W4 m ρ c (Proc.devRef .tc main_arg2) = m ((c : Thread nD τ).loc main_arg2) :=
  (back4 m ρ c _ (by decide)).trans (launch3 m ρ c _ (by decide) (by decide) (by decide))
theorem arg3_5 : W5 m ρ c (Proc.devRef .tc main_arg3) = m ((c : Thread nD τ).loc main_arg3) :=
  (back5 m ρ c _ (by decide)).trans ((back4 m ρ c _ (by decide)).trans (launch3 m ρ c _ (by decide) (by decide) (by decide)))
theorem arg4_6 : W6 m ρ c (Proc.devRef .tc main_arg4) = m ((c : Thread nD τ).loc main_arg4) :=
  (back6 m ρ c _ (by decide)).trans ((back5 m ρ c _ (by decide)).trans ((back4 m ρ c _ (by decide)).trans (launch3 m ρ c _ (by decide) (by decide) (by decide))))
theorem arg5_7 : W7 m ρ c (Proc.devRef .tc main_arg5) = m ((c : Thread nD τ).loc main_arg5) :=
  (back7 m ρ c _ (by decide)).trans ((back6 m ρ c _ (by decide)).trans ((back5 m ρ c _ (by decide)).trans ((back4 m ρ c _ (by decide)).trans (launch3 m ρ c _ (by decide) (by decide) (by decide)))))
theorem arg6_8 : W8 m ρ c (Proc.devRef .tc main_arg6) = m ((c : Thread nD τ).loc main_arg6) :=
  (back8 m ρ c _ (by decide)).trans ((back7 m ρ c _ (by decide)).trans ((back6 m ρ c _ (by decide)).trans ((back5 m ρ c _ (by decide)).trans ((back4 m ρ c _ (by decide)).trans (launch3 m ρ c _ (by decide) (by decide) (by decide))))))

/-- A buffer no stretch writes and no region owns, at the pooling stretch's entry. -/
theorem launch10 (b : Ref sig .tc) (h0 : b ∉ KHost.wr0) (h1 : b ∉ KHost.wr01) (h2 : b ∉ KHost.wr02) (r0 : ∀ w, Pipeline.arrRef spec0 w ≠ b)
    (h3 : b ∉ KHost.wr1) (r1 : ∀ w, Pipeline.arrRef spec1 w ≠ b) (h4 : b ∉ KHost.wr2) (r2 : ∀ w, Pipeline.arrRef spec2 w ≠ b)
    (h5 : b ∉ KHost.wr3) (r3 : ∀ w, Pipeline.arrRef spec3 w ≠ b) :
    W10 m ρ c (Proc.devRef .tc b) = m ((c : Thread nD τ).loc b) :=
  (back10 m ρ c b r3).trans ((back9 m ρ c b h5).trans ((back8 m ρ c b r2).trans ((back7 m ρ c b h4).trans ((back6 m ρ c b r1).trans
    ((back5 m ρ c b h3).trans ((back4 m ρ c b r0).trans (launch3 m ρ c b h0 h1 h2)))))))

theorem arg8_10 : W10 m ρ c (Proc.devRef .tc main_arg8) = m ((c : Thread nD τ).loc main_arg8) := launch10 m ρ c _ (by decide) (by decide) (by decide) (by decide) (by decide) (by decide) (by decide) (by decide) (by decide) (by decide)
theorem arg10_10 : W10 m ρ c (Proc.devRef .tc main_arg10) = m ((c : Thread nD τ).loc main_arg10) := launch10 m ρ c _ (by decide) (by decide) (by decide) (by decide) (by decide) (by decide) (by decide) (by decide) (by decide) (by decide)
theorem arg7_11 : W11 m ρ c (Proc.devRef .tc main_arg7) = m ((c : Thread nD τ).loc main_arg7) :=
  (back11 m ρ c _ (by decide)).trans (launch10 m ρ c _ (by decide) (by decide) (by decide) (by decide) (by decide) (by decide) (by decide) (by decide) (by decide) (by decide))

/-! ## The messages' ends and normalisation -/

/-- The source ends after the first stretch. -/
theorem src1 : W1 m ρ c (Proc.devRef .tc main_v3) = GcnHost.srcOf (m ((c : Thread nD τ).loc main_arg9)) := KHost.read0_src _
/-- The destination ends after the first stretch. -/
theorem dst1 : W1 m ρ c (Proc.devRef .tc main_v6) = GcnHost.dstOf (m ((c : Thread nD τ).loc main_arg9)) := KHost.read0_dst _

/-- deg^(-1/2) where the degree is positive and 0 elsewhere, after the second stretch. -/
theorem dinv2 : W2 m ρ c (Proc.devRef .tc main_v14) = GcnHost.dinvOf (GcnHost.dstOf (m ((c : Thread nD τ).loc main_arg9))) := by
  refine (KHost.read01_dinv (W1 m ρ c)).trans ?_
  rw [show W1 m ρ c (Proc.devRef .tc main_v12) = _ from KHost.read0_pos (W0 m ρ c),
    show W1 m ρ c (Proc.devRef .tc main_v13) = _ from KHost.read0_rsqrt (W0 m ρ c),
    show W1 m ρ c (Proc.devRef .tc main_cst_2) = _ from KHost.read0_zero (W0 m ρ c)]
  rfl

/-- The source ends at the first region's entry. -/
theorem src3 : W3 m ρ c (Proc.devRef .tc main_v3) = GcnHost.srcOf (m ((c : Thread nD τ).loc main_arg9)) :=
  (back3 m ρ c _ (by decide)).trans ((back2 m ρ c _ (by decide)).trans (src1 m ρ c))
/-- The destination ends at the first region's entry. -/
theorem dst3 : W3 m ρ c (Proc.devRef .tc main_v6) = GcnHost.dstOf (m ((c : Thread nD τ).loc main_arg9)) :=
  (back3 m ρ c _ (by decide)).trans ((back2 m ρ c _ (by decide)).trans (dst1 m ρ c))

/-- The messages' normalisation at the first region's entry. -/
theorem norm3 : W3 m ρ c (Proc.devRef .tc main_v29)
    = GcnHost.normOf (GcnHost.srcOf (m ((c : Thread nD τ).loc main_arg9))) (GcnHost.dstOf (m ((c : Thread nD τ).loc main_arg9))) := by
  refine (KHost.read02_norm (W2 m ρ c)).trans ?_
  rw [dinv2 m ρ c,
    show W2 m ρ c (Proc.devRef .tc main_v3) = _ from (back2 m ρ c _ (by decide)).trans (src1 m ρ c),
    show W2 m ρ c (Proc.devRef .tc main_v6) = _ from (back2 m ρ c _ (by decide)).trans (dst1 m ρ c)]
  rfl

/-- A buffer written by the first three stretches only, and owned by no region, holds at the entry of the second, third
    and fourth aggregation stretches what it held at the first region's entry. -/
theorem hold4 (b : Ref sig .tc) (r0 : ∀ w, Pipeline.arrRef spec0 w ≠ b) :
    W4 m ρ c (Proc.devRef .tc b) = W3 m ρ c (Proc.devRef .tc b) := back4 m ρ c b r0
theorem hold6 (b : Ref sig .tc) (r0 : ∀ w, Pipeline.arrRef spec0 w ≠ b) (h1 : b ∉ KHost.wr1) (r1 : ∀ w, Pipeline.arrRef spec1 w ≠ b) :
    W6 m ρ c (Proc.devRef .tc b) = W3 m ρ c (Proc.devRef .tc b) :=
  (back6 m ρ c b r1).trans ((back5 m ρ c b h1).trans (back4 m ρ c b r0))
theorem hold8 (b : Ref sig .tc) (r0 : ∀ w, Pipeline.arrRef spec0 w ≠ b) (h1 : b ∉ KHost.wr1) (r1 : ∀ w, Pipeline.arrRef spec1 w ≠ b)
    (h2 : b ∉ KHost.wr2) (r2 : ∀ w, Pipeline.arrRef spec2 w ≠ b) :
    W8 m ρ c (Proc.devRef .tc b) = W3 m ρ c (Proc.devRef .tc b) :=
  (back8 m ρ c b r2).trans ((back7 m ρ c b h2).trans (hold6 m ρ c b r0 h1 r1))

end Cert.KernelIdeal.KStable

end
-- ==== Proof.BlockProd.lean ====
/-
  A 2000 × 64 block of rows times a 64 × 64 array, accumulated into the zero block: at row p and column q the result is
  the plain sum over the 64 shared positions k of X(p, k) · W(k, q). The contraction runs over the block's axis 1 and
  the array's axis 0; its one-axis index set is identified with Fin 64, the left operand is read at (p, k) and the
  right one at (k, q), and the zero accumulator contributes nothing.
-/
import proofs.«161394_j27771258536143_1_alg».proof.Proof.Gen.KernelIdeal
import Idealize.ShloMosaic.Lib.ValueIdx
import Idealize.ShloMosaic.PureOps.Ideal.Laws

noncomputable section

namespace Cert.KernelIdeal.BlockProd

open Cert.KernelIdeal Cert.KernelIdeal.Gen Idealize.ShloMosaic Idealize.ShloMosaic.ValueIdx
open scoped BigOperators

/-- The left operand's row is the output's row: axis 0 of the block is not contracted. -/
theorem lhs_row (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

/-- The left operand's column is the contraction position. -/
theorem lhs_col (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q

/-- The right operand's row is the contraction position. -/
theorem rhs_row (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q

/-- The right operand's column is the output's column: axis 1 of the array is not contracted. -/
theorem rhs_col (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The block product into a zero accumulator, entry by entry: Σₖ X(p, k) · W(k, q). -/
theorem matmul_zero_apply (x : FVec Ideal S2000x64 .bf16) (w : FVec Ideal S64x64 .bf16) (p : Fin 2000) (q : Fin 64) :
    matmul (F := Ideal) dot_S2000x64_S64x64_S2000x64_1_0_0_1_n_n none x w (constant (F := Ideal) S2000x64 .f32 0x00000000#32) (ix2 p q)
      = ∑ k : Fin 64, x (ix2 p k) * w (ix2 k q) := by
  refine (Ideal.matmul_constant_zero_apply dot_S2000x64_S64x64_S2000x64_1_0_0_1_n_n none x w (ix2 p q)).trans ?_
  rw [← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q)
      ((contrEquiv1 dot_S2000x64_S64x64_S2000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S2000x64_S64x64_S2000x64_1_0_0_1_n_n.rhsIdx (ix2 p q)
      ((contrEquiv1 dot_S2000x64_S64x64_S2000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

end Cert.KernelIdeal.BlockProd

end
-- ==== Proof.RegionProd.lean ====
/-
  The first region: X · W by row blocks. The grid has 25 points; point t stages rows 2000 t … 2000 t + 1999 of the
  50000 × 64 node array and the whole 64 × 64 weight array, multiplies them into a zero accumulator and writes the
  2000 × 64 product back to the same rows of the result. Entry (r, j) of the result therefore depends on row r of the node
  array and column j of the weights only, and the array after the region is the whole-array product, entry by entry.
-/
import proofs.«161394_j27771258536143_1_alg».proof.Proof.Gen.KernelIdeal.Frame
import proofs.«161394_j27771258536143_1_alg».proof.Proof.GcnSpec
import proofs.«161394_j27771258536143_1_alg».proof.Proof.BlockProd
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionProd

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The body's result at an entry -/

/-- The two format changes are the identity on the extended reals and the accumulator is zero, so what the body stores at
    row p and column q of its block is Σₖ X(p, k) · W(k, q) of the two blocks it loaded. -/
theorem pay_apply (x0 : Vec Ideal S2000x64 .f32) (x1 : Vec Ideal S64x64 .f32) (p : Fin 2000) (q : Fin 64) :
    k0_pay1 (F := Ideal) x0 x1 (ix2 p q) = ∑ k : Fin 64, x0 (ix2 p k) * x1 (ix2 k q) := by
  unfold k0_pay1
  exact BlockProd.matmul_zero_apply (truncf .bf16 x0 bitsLt_bf16_f32) (truncf .bf16 x1 bitsLt_bf16_f32) p q

/-! ## Where the blocks sit in the arrays -/

theorem hz : (![0, 0] : Fin 2 → Nat) = fun _ => 0 := funext fun a => by fin_cases a <;> rfl

/-- The block indices over the 25 grid points: the left operand's and the result's windows take row block t, column
    block 0; the right operand's window is the whole 64 × 64 array at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p, column k of the left operand's block at point t is row 2000 t + p, column k of the node array. -/
theorem left_block_apply (c : Dev nD) (t : Fin cfg0.N) (p : Fin 2000) (k : Fin 64) (r : Fin 50000)
    (hr : r.val = t.val * 2000 + p.val) :
    (iblk0 V c 0 t : Vec Ideal S2000x64 .f32) (ix2 p k) = (V c main_arg0 : S50000x64.Idx → EReal) (ix2 r k) := by
  obtain ⟨e0, e1, -, -, -, -⟩ := idx_facts t
  unfold iblk0
  rw [View.read_apply]
  show (V c main_arg0 : S50000x64.Idx → EReal) _ = _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 64 + 1 * k.val = k.val; rw [e1]; omega

/-- The right operand's block at every point is the whole weight array. -/
theorem right_block_apply (c : Dev nD) (t : Fin cfg0.N) (k : Fin 64) (q : Fin 64) :
    (iblk0 V c 1 t : Vec Ideal S64x64 .f32) (ix2 k q) = (V c main_arg1 : S64x64.Idx → EReal) (ix2 k q) := by
  obtain ⟨-, -, e0, e1, -, -⟩ := idx_facts t
  unfold iblk0
  rw [View.read_apply]
  show (V c main_arg1 : S64x64.Idx → EReal) _ = _
  congr 1
  funext a
  apply Fin.ext
  match a with
  | ⟨0, _⟩ => show win0_1.index t (0 : Fin 2) * 64 + 1 * k.val = k.val; rw [e0]; omega
  | ⟨1, _⟩ => show win0_1.index t (1 : Fin 2) * 64 + 1 * q.val = q.val; rw [e1]; omega

/-! ## What a point writes back -/

/-- Point t writes back rows 2000 t … 2000 t + 1999 of X · W. -/
theorem flushed_eq (c : Dev nD) (t : Fin cfg0.N) :
    (dat0 (F := Ideal) V c).flushed 2 t
      = ((cfg0.win 2).blk t).view.read (Elt Ideal) (GcnSpec.matW (V c main_arg0) (V c main_arg1)) := by
  show (cfg0.win 2).cut (grid0.coords t) ((dat0 (F := Ideal) V c).after 2 t) = _
  rw [after0_2]
  unfold out0_2
  rw [View.canon_unit_zero hz]
  simp only [View.ld_unit_zero (S := S2000x64) hz, View.ld_unit_zero (S := S64x64) hz]
  obtain ⟨-, -, -, -, e0, e1⟩ := idx_facts t
  refine funext fun (j : S2000x64.Idx) => ?_
  obtain ⟨p, q, rfl⟩ : ∃ (p : Fin 2000) (q : Fin 64), j = ix2 p q := ⟨j 0, j 1, eq_ix2 j⟩
  have hr : t.val * 2000 + p.val < 50000 := by
    have ht := t.isLt; have hN : cfg0.N = 25 := N_0; have hp := p.isLt; omega
  have hemb : ((cfg0.win 2).blk t).view.emb (ix2 p q) = (ix2 (⟨t.val * 2000 + p.val, hr⟩ : Fin 50000) q : S50000x64.Idx) := by
    funext a
    apply Fin.ext
    match a with
    | ⟨0, _⟩ => show win0_2.index t (0 : Fin 2) * 2000 + 1 * p.val = t.val * 2000 + p.val; rw [e0]; omega
    | ⟨1, _⟩ => show win0_2.index t (1 : Fin 2) * 64 + 1 * q.val = q.val; rw [e1]; omega
  show k0_pay1 (F := Ideal) (iblk0 V c 0 t) (iblk0 V c 1 t) (ix2 p q)
    = GcnSpec.matW (V c main_arg0) (V c main_arg1) (((cfg0.win 2).blk t).view.emb (ix2 p q))
  rw [hemb, GcnSpec.matW_apply]
  refine (pay_apply (iblk0 V c 0 t) (iblk0 V c 1 t) p q).trans ?_
  refine Finset.sum_congr rfl fun k _ => ?_
  rw [left_block_apply V c t p k ⟨t.val * 2000 + p.val, hr⟩ rfl, right_block_apply V c t k q]

/-! ## The 25 row blocks tile the array -/

/-- An entry is in point t's block iff each coordinate is in the block's range on its axis. -/
theorem mem_blk (t : Fin cfg0.N) (i : S50000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v30).slice (win0_2.rect t)).set ↔ _
  rw [View.set_slice_whole, Rect.mem_set_unit]
  exact Iff.rfl

/-- Row r lies in the block of point r / 2000, and the 64 columns are one block. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 25 := N_0
  have ht : (i 0).val / 2000 < cfg0.N := by rw [hN]; omega
  obtain ⟨-, -, -, -, e0, e1⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_2.index ⟨(i 0).val / 2000, ht⟩ (1 : Fin 2) * 64 ≤ (i 1).val
      ∧ (i 1).val < win0_2.index ⟨(i 0).val / 2000, ht⟩ (1 : Fin 2) * 64 + 64
    rw [e1]; omega

/-! ## The array after the region -/

/-- After the 25 points the result array holds X · W of the two arrays the region found. -/
theorem final (c : Dev nD) :
    (dat0 (F := Ideal) V c).arrAt 2 cfg0.N = GcnSpec.matW (V c main_arg0) (V c main_arg1) :=
  (dat0 (F := Ideal) V c).arrAt_eq_of_cover 2 (GcnSpec.matW (V c main_arg0) (V c main_arg1))
    (fun t _ => flushed_eq V c t) cover

end Cert.KernelIdeal.RegionProd

end
-- ==== Proof.RegionReluProd1.lean ====
/-
  The first hidden-layer kernel region: it walks the 50000 × 64 node array in 25 blocks of 2000 rows, and at each block
  stores max(block of A + the 1 × 64 row b broadcast down the rows, 0) times the 64 × 64 weights W, the two operands of
  the product narrowed to a shorter float format first — a change of format that is the identity on extended reals —
  and the product accumulated onto a zero block. Here that is read index by index: the stored value at (p, q) of a block
  is Σₖ max(A(p, k) + b(k), 0) · W(k, q); block t of the input and of the output are rows 2000 t … 2000 t + 1999 of
  their arrays, the row window and the weight window are their whole arrays at every point; the 25 row blocks tile the
  50000 rows. So after the region the output array is max(A + b, 0) · W, entry by entry.
-/
import proofs.«161394_j27771258536143_1_alg».proof.Proof.Gen.KernelIdeal.Frame
import proofs.«161394_j27771258536143_1_alg».proof.Proof.GcnSpec
import proofs.«161394_j27771258536143_1_alg».proof.Proof.BlockProd
import Idealize.ShloMosaic.Lib.Pipeline.Value
import Idealize.ShloMosaic.Lib.ValueIdx
import Idealize.ShloMosaic.Lib.ValueLayout

noncomputable section

namespace Cert.KernelIdeal.RegionReluProd1

open Cert Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The zero offsets of a whole-block access, as a constant function. -/
theorem origin_zero : (![0, 0] : Fin 2 → Nat) = fun _ => 0 := funext fun a => by fin_cases a <;> rfl

/-! ## The stored value at an index of a block -/

/-- At (p, q) the body stores Σₖ max(x0(p, k) + x1(0, k), 0) · x2(k, q): the product onto a zero block is the finite sum
    over the 64 features, the two narrowings and the two same-shape casts are the identity, the row broadcast reads the
    row's one line, and the maximum's second operand is the zero word everywhere. -/
theorem pay_apply (x0 : Vec Ideal S2000x64 .f32) (x1 : Vec Ideal S1x64 .f32) (x2 : Vec Ideal S64x64 .f32) (p : Fin 2000) (q : Fin 64) :
    k1_pay1 (F := Ideal) x0 x1 x2 (ix2 p q)
      = ∑ k : Fin 64, max (x0 (ix2 p k) + x1 (ix2 (0 : Fin 1) k)) (Ideal.ofBits .f32 0x00000000#32) * x2 (ix2 k q) := by
  unfold k1_pay1
  rw [shapeCast_self, shapeCast_self]
  refine (BlockProd.matmul_zero_apply _ _ p q).trans ?_
  refine Finset.sum_congr rfl fun k _ => ?_
  rw [truncf_apply, truncf_apply, maximumf_apply, addf_apply, broadcastTo_1b_ab_apply, broadcast_apply]
  rfl

/-! ## Where each window's block lies in its array -/

/-- The four index maps over the 25 grid points: the node window and the output window are at row block t, column
    block 0; the bias-row window and the weight window are at block (0, 0) throughout. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 25 :=
  (by decide +kernel : ∀ t : Fin grid1.N, _)

/-- Every one of the 25 row blocks is some grid point's output block. -/
theorem index_onto : ∀ q0 : Fin 25, ∃ t : Fin cfg1.N, win1_3.index t = ![q0.val, 0] :=
  (by decide +kernel : ∀ q0 : Fin 25, ∃ t : Fin grid1.N, win1_3.index t = ![q0.val, 0])

/-- Entry (p, k) of the node window's block at point t is entry (2000 t + p, k) of the node array. -/
theorem nodes_block_apply (c : Dev nD) (t : Fin cfg1.N) (p : Fin 2000) (q : Fin 64) (r : Fin 50000)
    (hr : r.val = 2000 * t.val + p.val) :
    (iblk1 (F := Ideal) V c 0 t : Vec Ideal S2000x64 .f32) (ix2 p q) = (V c main_v43 : S50000x64.Idx → EReal) (ix2 r q) := by
  obtain ⟨e0, e1, -⟩ := index_facts t
  unfold iblk1
  rw [View.read_apply]
  show V c main_v43 _ = V c main_v43 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 64 + 1 * q.val = q.val; rw [e1]; omega

/-- The bias-row window's block at any point is the whole 1 × 64 array. -/
theorem row_block_apply (c : Dev nD) (t : Fin cfg1.N) (q : Fin 64) :
    (iblk1 (F := Ideal) V c 1 t : Vec Ideal S1x64 .f32) (ix2 (0 : Fin 1) q) = (V c main_v44 : S1x64.Idx → EReal) (ix2 (0 : Fin 1) q) := by
  obtain ⟨-, -, e0, e1, -⟩ := index_facts t
  unfold iblk1
  rw [View.read_apply]
  show V c main_v44 _ = V c main_v44 _
  congr 1
  funext a
  apply Fin.ext
  match a with
  | ⟨0, _⟩ => show win1_1.index t (0 : Fin 2) * 1 + 1 * 0 = 0; rw [e0]
  | ⟨1, _⟩ => show win1_1.index t (1 : Fin 2) * 64 + 1 * q.val = q.val; rw [e1]; omega

/-- The weight window's block at any point is the whole 64 × 64 array. -/
theorem weights_block_apply (c : Dev nD) (t : Fin cfg1.N) (k : Fin 64) (q : Fin 64) :
    (iblk1 (F := Ideal) V c 2 t : Vec Ideal S64x64 .f32) (ix2 k q) = (V c main_arg3 : S64x64.Idx → EReal) (ix2 k q) := by
  obtain ⟨-, -, -, -, e0, e1, -⟩ := index_facts t
  unfold iblk1
  rw [View.read_apply]
  show V c main_arg3 _ = V c main_arg3 _
  congr 1
  funext a
  apply Fin.ext
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- Entry (p, q) of the output window's block at point t sits at (2000 t + p, q) of the output array. -/
theorem out_block_emb (t : Fin cfg1.N) (p : Fin 2000) (q : Fin 64) (r : Fin 50000) (hr : r.val = 2000 * t.val + p.val) :
    ((cfg1.win 3).blk t).view.emb (ix2 p q) = (ix2 r q : S50000x64.Idx) := by
  obtain ⟨-, -, -, -, -, -, e0, e1, -⟩ := index_facts t
  funext a
  apply Fin.ext
  match a with
  | ⟨0, _⟩ => show win1_3.index t (0 : Fin 2) * 2000 + 1 * p.val = r.val; rw [e0, hr]; omega
  | ⟨1, _⟩ => show win1_3.index t (1 : Fin 2) * 64 + 1 * q.val = q.val; rw [e1]; omega

/-! ## What each point writes back, and the whole array -/

/-- What point t writes back is block t of max(A + b, 0) · W: at (p, q) of the block both sides are
    Σₖ max(A(2000 t + p, k) + b(k), 0) · W(k, q). -/
theorem flushed_eq (c : Dev nD) (t : Fin cfg1.N) :
    (dat1 (F := Ideal) V c).flushed 3 t
      = ((cfg1.win 3).blk t).view.read (Elt Ideal)
          (GcnSpec.reluMatW (V c main_v43) (GcnSpec.rowOf (V c main_v44)) (V c main_arg3)) := by
  show (cfg1.win 3).cut (grid1.coords t) ((dat1 (F := Ideal) V c).after 3 t) = _
  rw [after1_3]
  unfold out1_3
  rw [View.canon_unit_zero origin_zero]
  simp only [View.ld_unit_zero (S := S2000x64) origin_zero, View.ld_unit_zero (S := S1x64) origin_zero,
    View.ld_unit_zero (S := S64x64) origin_zero]
  obtain ⟨-, -, -, -, -, -, -, -, ht⟩ := index_facts t
  funext j
  obtain ⟨p, q, rfl⟩ : ∃ (p : Fin 2000) (q : Fin 64), j = ix2 p q := ⟨j 0, j 1, eq_ix2 j⟩
  have hr : 2000 * t.val + p.val < 50000 := by have := p.isLt; omega
  show k1_pay1 (F := Ideal) (iblk1 (F := Ideal) V c 0 t) (iblk1 (F := Ideal) V c 1 t) (iblk1 (F := Ideal) V c 2 t) (ix2 p q)
    = GcnSpec.reluMatW (V c main_v43) (GcnSpec.rowOf (V c main_v44)) (V c main_arg3) (((cfg1.win 3).blk t).view.emb (ix2 p q))
  refine (pay_apply (iblk1 (F := Ideal) V c 0 t) (iblk1 (F := Ideal) V c 1 t) (iblk1 (F := Ideal) V c 2 t) p q).trans ?_
  rw [out_block_emb t p q ⟨_, hr⟩ rfl, GcnSpec.reluMatW_apply]
  refine Finset.sum_congr rfl fun k _ => ?_
  rw [nodes_block_apply V c t p k ⟨_, hr⟩ rfl, row_block_apply V c t k, weights_block_apply V c t k q, GcnSpec.rowOf_apply]

/-- An index of the output array is in point t's block iff each coordinate is in the block's range on its axis. -/
theorem mem_blk (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v45).slice (win1_3.rect t)).set ↔ _
  rw [View.set_slice_whole, Rect.mem_set_unit]
  exact Iff.rfl

/-- The 25 blocks of 2000 rows tile the 50000 rows (row r is in block r / 2000) and the 64 columns are one block. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := index_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- After the region the output array is max(A + b, 0) · W, entry by entry. -/
theorem final (c : Dev nD) :
    (dat1 (F := Ideal) V c).arrAt 3 cfg1.N
      = GcnSpec.reluMatW (V c main_v43) (GcnSpec.rowOf (V c main_v44)) (V c main_arg3) :=
  (dat1 (F := Ideal) V c).arrAt_eq_of_cover 3 (GcnSpec.reluMatW (V c main_v43) (GcnSpec.rowOf (V c main_v44)) (V c main_arg3))
    (fun t _ => flushed_eq V c t) cover

end Cert.KernelIdeal.RegionReluProd1

end
-- ==== Proof.RegionReluProd2.lean ====
/-
  The third region: max(A + b, 0) · W by row blocks. The grid has 25 points; point t stages rows 2000 t … 2000 t + 1999
  of the 50000 × 64 array A, the whole 1 × 64 bias array and the whole 64 × 64 weight array; it adds the bias row to every
  row of the block, takes the maximum with zero entry by entry, multiplies by the weights into a zero accumulator, and
  writes the 2000 × 64 product back to the same rows of the result. Entry (r, j) of the result depends on row r of A, the
  bias row and column j of the weights only, so the array after the region is the whole-array function, entry by entry.
-/
import proofs.«161394_j27771258536143_1_alg».proof.Proof.Gen.KernelIdeal.Frame
import proofs.«161394_j27771258536143_1_alg».proof.Proof.GcnSpec
import proofs.«161394_j27771258536143_1_alg».proof.Proof.BlockProd
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionReluProd2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The body's result at an entry -/

/-- The same-shape casts and the format changes are the identity, the 1 × 64 bias array is repeated over the 2000 rows,
    the maximum is taken entry by entry against the zero word, and the accumulator is zero: the body stores
    Σₖ max(A(p, k) + b(0, k), 0) · W(k, q) at row p and column q of its block. -/
theorem pay_apply (x0 : Vec Ideal S2000x64 .f32) (x1 : Vec Ideal S1x64 .f32) (x2 : Vec Ideal S64x64 .f32)
    (p : Fin 2000) (q : Fin 64) :
    k2_pay1 (F := Ideal) x0 x1 x2 (ix2 p q)
      = ∑ k : Fin 64, max (x0 (ix2 p k) + x1 (ix2 (0 : Fin 1) k)) (Ideal.ofBits .f32 0x00000000#32) * x2 (ix2 k q) := by
  unfold k2_pay1
  simp only [shapeCast_self]
  refine (BlockProd.matmul_zero_apply _ _ p q).trans ?_
  refine Finset.sum_congr rfl fun k _ => ?_
  show max (x0 (ix2 p k) + broadcastTo S2000x64 x1 broadcasts_S1x64_S2000x64 (ix2 p k)) (Ideal.ofBits .f32 0x00000000#32)
      * x2 (ix2 k q) = _
  rw [broadcastTo_1b_ab_apply x1 broadcasts_S1x64_S2000x64 p k]

/-! ## Where the blocks sit in the arrays -/

theorem hz : (![0, 0] : Fin 2 → Nat) = fun _ => 0 := funext fun a => by fin_cases a <;> rfl

/-- The block indices over the 25 grid points: the windows of A and of the result take row block t, column block 0; the
    windows of the bias and of the weights are their whole arrays at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p, column k of A's block at point t is row 2000 t + p, column k of A. -/
theorem rows_block_apply (c : Dev nD) (t : Fin cfg2.N) (p : Fin 2000) (k : Fin 64) (r : Fin 50000)
    (hr : r.val = t.val * 2000 + p.val) :
    (iblk2 V c 0 t : Vec Ideal S2000x64 .f32) (ix2 p k) = (V c main_v58 : S50000x64.Idx → EReal) (ix2 r k) := by
  obtain ⟨e0, e1, -, -, -, -, -, -⟩ := idx_facts t
  unfold iblk2
  rw [View.read_apply]
  show (V c main_v58 : S50000x64.Idx → EReal) _ = _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 64 + 1 * k.val = k.val; rw [e1]; omega

/-- The bias' block at every point is the 1 × 64 bias array. -/
theorem bias_block_apply (c : Dev nD) (t : Fin cfg2.N) (k : Fin 64) :
    (iblk2 V c 1 t : Vec Ideal S1x64 .f32) (ix2 (0 : Fin 1) k) = (V c main_v59 : S1x64.Idx → EReal) (ix2 (0 : Fin 1) k) := by
  obtain ⟨-, -, e0, e1, -, -, -, -⟩ := idx_facts t
  unfold iblk2
  rw [View.read_apply]
  show (V c main_v59 : S1x64.Idx → EReal) _ = _
  congr 1
  funext a
  apply Fin.ext
  match a with
  | ⟨0, _⟩ => show win2_1.index t (0 : Fin 2) * 1 + 1 * 0 = 0; rw [e0]
  | ⟨1, _⟩ => show win2_1.index t (1 : Fin 2) * 64 + 1 * k.val = k.val; rw [e1]; omega

/-- The weights' block at every point is the whole weight array. -/
theorem weight_block_apply (c : Dev nD) (t : Fin cfg2.N) (k : Fin 64) (q : Fin 64) :
    (iblk2 V c 2 t : Vec Ideal S64x64 .f32) (ix2 k q) = (V c main_arg5 : S64x64.Idx → EReal) (ix2 k q) := by
  obtain ⟨-, -, -, -, e0, e1, -, -⟩ := idx_facts t
  unfold iblk2
  rw [View.read_apply]
  show (V c main_arg5 : S64x64.Idx → EReal) _ = _
  congr 1
  funext a
  apply Fin.ext
  match a with
  | ⟨0, _⟩ => show win2_2.index t (0 : Fin 2) * 64 + 1 * k.val = k.val; rw [e0]; omega
  | ⟨1, _⟩ => show win2_2.index t (1 : Fin 2) * 64 + 1 * q.val = q.val; rw [e1]; omega

/-! ## What a point writes back -/

/-- Point t writes back rows 2000 t … 2000 t + 1999 of max(A + b, 0) · W. -/
theorem flushed_eq (c : Dev nD) (t : Fin cfg2.N) :
    (dat2 (F := Ideal) V c).flushed 3 t
      = ((cfg2.win 3).blk t).view.read (Elt Ideal)
          (GcnSpec.reluMatW (V c main_v58) (GcnSpec.rowOf (V c main_v59)) (V c main_arg5)) := by
  show (cfg2.win 3).cut (grid2.coords t) ((dat2 (F := Ideal) V c).after 3 t) = _
  rw [after2_3]
  unfold out2_3
  rw [View.canon_unit_zero hz]
  simp only [View.ld_unit_zero (S := S2000x64) hz, View.ld_unit_zero (S := S1x64) hz, View.ld_unit_zero (S := S64x64) hz]
  obtain ⟨-, -, -, -, -, -, e0, e1⟩ := idx_facts t
  refine funext fun (j : S2000x64.Idx) => ?_
  obtain ⟨p, q, rfl⟩ : ∃ (p : Fin 2000) (q : Fin 64), j = ix2 p q := ⟨j 0, j 1, eq_ix2 j⟩
  have hr : t.val * 2000 + p.val < 50000 := by
    have ht := t.isLt; have hN : cfg2.N = 25 := N_2; have hp := p.isLt; omega
  have hemb : ((cfg2.win 3).blk t).view.emb (ix2 p q) = (ix2 (⟨t.val * 2000 + p.val, hr⟩ : Fin 50000) q : S50000x64.Idx) := by
    funext a
    apply Fin.ext
    match a with
    | ⟨0, _⟩ => show win2_3.index t (0 : Fin 2) * 2000 + 1 * p.val = t.val * 2000 + p.val; rw [e0]; omega
    | ⟨1, _⟩ => show win2_3.index t (1 : Fin 2) * 64 + 1 * q.val = q.val; rw [e1]; omega
  show k2_pay1 (F := Ideal) (iblk2 V c 0 t) (iblk2 V c 1 t) (iblk2 V c 2 t) (ix2 p q)
    = GcnSpec.reluMatW (V c main_v58) (GcnSpec.rowOf (V c main_v59)) (V c main_arg5) (((cfg2.win 3).blk t).view.emb (ix2 p q))
  rw [hemb, GcnSpec.reluMatW_apply]
  refine (pay_apply (iblk2 V c 0 t) (iblk2 V c 1 t) (iblk2 V c 2 t) p q).trans ?_
  refine Finset.sum_congr rfl fun k _ => ?_
  rw [rows_block_apply V c t p k ⟨t.val * 2000 + p.val, hr⟩ rfl, bias_block_apply V c t k, weight_block_apply V c t k q,
    GcnSpec.rowOf_apply]

/-! ## The 25 row blocks tile the array -/

/-- An entry is in point t's block iff each coordinate is in the block's range on its axis. -/
theorem mem_blk (t : Fin cfg2.N) (i : S50000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v60).slice (win2_3.rect t)).set ↔ _
  rw [View.set_slice_whole, Rect.mem_set_unit]
  exact Iff.rfl

/-- Row r lies in the block of point r / 2000, and the 64 columns are one block. -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  have ht : (i 0).val / 2000 < cfg2.N := by rw [hN]; omega
  obtain ⟨-, -, -, -, -, -, e0, e1⟩ := idx_facts ⟨(i 0).val / 2000, ht⟩
  refine ⟨⟨(i 0).val / 2000, ht⟩, flush2_3 _, ?_⟩
  rw [mem_blk]
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_3.index ⟨(i 0).val / 2000, ht⟩ (1 : Fin 2) * 64 ≤ (i 1).val
      ∧ (i 1).val < win2_3.index ⟨(i 0).val / 2000, ht⟩ (1 : Fin 2) * 64 + 64
    rw [e1]; omega

/-! ## The array after the region -/

/-- After the 25 points the result array holds max(A + b, 0) · W of the three arrays the region found. -/
theorem final (c : Dev nD) :
    (dat2 (F := Ideal) V c).arrAt 3 cfg2.N
      = GcnSpec.reluMatW (V c main_v58) (GcnSpec.rowOf (V c main_v59)) (V c main_arg5) :=
  (dat2 (F := Ideal) V c).arrAt_eq_of_cover 3
    (GcnSpec.reluMatW (V c main_v58) (GcnSpec.rowOf (V c main_v59)) (V c main_arg5))
    (fun t _ => flushed_eq V c t) cover

end Cert.KernelIdeal.RegionReluProd2

end
-- ==== Proof.RegionAddRow.lean ====
/-
  The fourth kernel region adds a bias row to every row of the node array: it walks the 50000 × 64 array in 25 blocks
  of 2000 rows, and at each block stores (block of A) + (the 1 × 64 row b broadcast down the 2000 rows). Here that is
  read index by index: the stored value at (p, q) of a block is A's entry plus b's entry q; block t of the input and of
  the output are rows 2000 t … 2000 t + 1999 of their arrays, the row window is the whole 1 × 64 array at every point;
  the 25 row blocks tile the 50000 rows. So after the region the output array is A + b, entry by entry.
-/
import proofs.«161394_j27771258536143_1_alg».proof.Proof.Gen.KernelIdeal.Frame
import proofs.«161394_j27771258536143_1_alg».proof.Proof.GcnSpec
import Idealize.ShloMosaic.Lib.Pipeline.Value
import Idealize.ShloMosaic.Lib.ValueIdx
import Idealize.ShloMosaic.Lib.ValueLayout

noncomputable section

namespace Cert.KernelIdeal.RegionAddRow

open Cert Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem origin_zero : (![0, 0] : Fin 2 → Nat) = fun _ => 0 := funext fun a => by fin_cases a <;> rfl

/-! ## The stored value at an index of a block -/

/-- At (p, q) the body stores the block's entry plus the bias row's entry q: the two same-shape casts are the identity
    and the row broadcast reads the row's one line. -/
theorem pay_apply (x0 : Vec Ideal S2000x64 .f32) (x1 : Vec Ideal S1x64 .f32) (p : Fin 2000) (q : Fin 64) :
    k3_pay1 (F := Ideal) x0 x1 (ix2 p q) = x0 (ix2 p q) + x1 (ix2 (0 : Fin 1) q) := by
  unfold k3_pay1
  rw [shapeCast_self, shapeCast_self]
  refine (addf_apply _ _ _).trans ?_
  rw [broadcastTo_1b_ab_apply]

/-! ## Where each window's block lies in its array -/

/-- The three index maps over the 25 grid points: the node window and the output window are at row block t, column
    block 0; the bias-row window is at block (0, 0) throughout. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 25 :=
  (by decide +kernel : ∀ t : Fin grid3.N, _)

/-- Every one of the 25 row blocks is some grid point's output block. -/
theorem index_onto : ∀ q0 : Fin 25, ∃ t : Fin cfg3.N, win3_2.index t = ![q0.val, 0] :=
  (by decide +kernel : ∀ q0 : Fin 25, ∃ t : Fin grid3.N, win3_2.index t = ![q0.val, 0])

/-- Entry (p, q) of the node window's block at point t is entry (2000 t + p, q) of the node array. -/
theorem nodes_block_apply (c : Dev nD) (t : Fin cfg3.N) (p : Fin 2000) (q : Fin 64) (r : Fin 50000)
    (hr : r.val = 2000 * t.val + p.val) :
    (iblk3 (F := Ideal) V c 0 t : Vec Ideal S2000x64 .f32) (ix2 p q) = (V c main_v73 : S50000x64.Idx → EReal) (ix2 r q) := by
  obtain ⟨e0, e1, -⟩ := index_facts t
  unfold iblk3
  rw [View.read_apply]
  show V c main_v73 _ = V c main_v73 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 64 + 1 * q.val = q.val; rw [e1]; omega

/-- The bias-row window's block at any point is the whole 1 × 64 array. -/
theorem row_block_apply (c : Dev nD) (t : Fin cfg3.N) (q : Fin 64) :
    (iblk3 (F := Ideal) V c 1 t : Vec Ideal S1x64 .f32) (ix2 (0 : Fin 1) q) = (V c main_v74 : S1x64.Idx → EReal) (ix2 (0 : Fin 1) q) := by
  obtain ⟨-, -, e0, e1, -⟩ := index_facts t
  unfold iblk3
  rw [View.read_apply]
  show V c main_v74 _ = V c main_v74 _
  congr 1
  funext a
  apply Fin.ext
  match a with
  | ⟨0, _⟩ => show win3_1.index t (0 : Fin 2) * 1 + 1 * 0 = 0; rw [e0]
  | ⟨1, _⟩ => show win3_1.index t (1 : Fin 2) * 64 + 1 * q.val = q.val; rw [e1]; omega

/-- Entry (p, q) of the output window's block at point t sits at (2000 t + p, q) of the output array. -/
theorem out_block_emb (t : Fin cfg3.N) (p : Fin 2000) (q : Fin 64) (r : Fin 50000) (hr : r.val = 2000 * t.val + p.val) :
    ((cfg3.win 2).blk t).view.emb (ix2 p q) = (ix2 r q : S50000x64.Idx) := by
  obtain ⟨-, -, -, -, e0, e1, -⟩ := index_facts t
  funext a
  apply Fin.ext
  match a with
  | ⟨0, _⟩ => show win3_2.index t (0 : Fin 2) * 2000 + 1 * p.val = r.val; rw [e0, hr]; omega
  | ⟨1, _⟩ => show win3_2.index t (1 : Fin 2) * 64 + 1 * q.val = q.val; rw [e1]; omega

/-! ## What each point writes back, and the whole array -/

/-- What point t writes back is block t of A + b: at (p, q) of the block both sides are A(2000 t + p, q) + b(q). -/
theorem flushed_eq (c : Dev nD) (t : Fin cfg3.N) :
    (dat3 (F := Ideal) V c).flushed 2 t
      = ((cfg3.win 2).blk t).view.read (Elt Ideal) (GcnSpec.addRow (V c main_v73) (GcnSpec.rowOf (V c main_v74))) := by
  show (cfg3.win 2).cut (grid3.coords t) ((dat3 (F := Ideal) V c).after 2 t) = _
  rw [after3_2]
  unfold out3_2
  rw [View.canon_unit_zero origin_zero]
  simp only [View.ld_unit_zero (S := S2000x64) origin_zero, View.ld_unit_zero (S := S1x64) origin_zero]
  obtain ⟨-, -, -, -, -, -, ht⟩ := index_facts t
  funext j
  obtain ⟨p, q, rfl⟩ : ∃ (p : Fin 2000) (q : Fin 64), j = ix2 p q := ⟨j 0, j 1, eq_ix2 j⟩
  have hr : 2000 * t.val + p.val < 50000 := by have := p.isLt; omega
  show k3_pay1 (F := Ideal) (iblk3 (F := Ideal) V c 0 t) (iblk3 (F := Ideal) V c 1 t) (ix2 p q)
    = GcnSpec.addRow (V c main_v73) (GcnSpec.rowOf (V c main_v74)) (((cfg3.win 2).blk t).view.emb (ix2 p q))
  refine (pay_apply (iblk3 (F := Ideal) V c 0 t) (iblk3 (F := Ideal) V c 1 t) p q).trans ?_
  rw [nodes_block_apply V c t p q ⟨_, hr⟩ rfl, row_block_apply V c t q, out_block_emb t p q ⟨_, hr⟩ rfl]
  rfl

/-- An index of the output array is in point t's block iff each coordinate is in the block's range on its axis. -/
theorem mem_blk (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v75).slice (win3_2.rect t)).set ↔ _
  rw [View.set_slice_whole, Rect.mem_set_unit]
  exact Iff.rfl

/-- The 25 blocks of 2000 rows tile the 50000 rows (row r is in block r / 2000) and the 64 columns are one block. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := index_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- After the region the output array is A + b, entry by entry. -/
theorem final (c : Dev nD) :
    (dat3 (F := Ideal) V c).arrAt 2 cfg3.N = GcnSpec.addRow (V c main_v73) (GcnSpec.rowOf (V c main_v74)) :=
  (dat3 (F := Ideal) V c).arrAt_eq_of_cover 2 (GcnSpec.addRow (V c main_v73) (GcnSpec.rowOf (V c main_v74)))
    (fun t _ => flushed_eq V c t) cover

end Cert.KernelIdeal.RegionAddRow

end
-- ==== Proof.RegionReadOut.lean ====
/-
  The last region: the read-out P · W + b in one grid point. The one point stages the whole 512 × 64 pooled array, the
  whole 64 × 2 weight array and the whole 1 × 2 bias array, multiplies the first two into a zero accumulator, adds the
  bias row to each of the 512 rows, and writes the 512 × 2 result back whole. Entry (g, o) of the result depends on row g
  of the pooled array, column o of the weights and entry o of the bias row only.
-/
import proofs.«161394_j27771258536143_1_alg».proof.Proof.Gen.KernelIdeal.Frame
import proofs.«161394_j27771258536143_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionReadOut

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The 512 × 64 by 64 × 2 product at an entry -/

/-- The left operand's row is the output's row: axis 0 of the pooled array is not contracted. -/
theorem lhs_row (i : S512x2.Idx) (q : dot_S512x64_S64x2_S512x2_1_0_0_1_n_n.contr.Idx) :
    (dot_S512x64_S64x2_S512x2_1_0_0_1_n_n.lhsIdx i q 0).val = (i 0).val := by
  unfold DotDims.lhsIdx
  rw [dif_neg (show ¬(0 : Fin S512x64.rank) ∈ dot_S512x64_S64x2_S512x2_1_0_0_1_n_n.lhsBatch by decide),
    dif_pos (show (0 : Fin S512x64.rank) ∈ dot_S512x64_S64x2_S512x2_1_0_0_1_n_n.lhsNonContracting by decide)]
  rfl

/-- The left operand's column is the contraction position. -/
theorem lhs_col (i : S512x2.Idx) (q : dot_S512x64_S64x2_S512x2_1_0_0_1_n_n.contr.Idx) :
    (dot_S512x64_S64x2_S512x2_1_0_0_1_n_n.lhsIdx i q 1).val = (q ⟨0, by decide⟩).val :=
  dot_S512x64_S64x2_S512x2_1_0_0_1_n_n.lhsIdx_val_of_single rfl i q

/-- The right operand's row is the contraction position. -/
theorem rhs_row (i : S512x2.Idx) (q : dot_S512x64_S64x2_S512x2_1_0_0_1_n_n.contr.Idx) :
    (dot_S512x64_S64x2_S512x2_1_0_0_1_n_n.rhsIdx i q 0).val = (q ⟨0, by decide⟩).val :=
  dot_S512x64_S64x2_S512x2_1_0_0_1_n_n.rhsIdx_val_of_single rfl i q

/-- The right operand's column is the output's column: axis 1 of the weights is not contracted. -/
theorem rhs_col (i : S512x2.Idx) (q : dot_S512x64_S64x2_S512x2_1_0_0_1_n_n.contr.Idx) :
    (dot_S512x64_S64x2_S512x2_1_0_0_1_n_n.rhsIdx i q 1).val = (i 1).val := by
  unfold DotDims.rhsIdx
  rw [dif_neg (show ¬(1 : Fin S64x2.rank) ∈ dot_S512x64_S64x2_S512x2_1_0_0_1_n_n.rhsBatch by decide),
    dif_pos (show (1 : Fin S64x2.rank) ∈ dot_S512x64_S64x2_S512x2_1_0_0_1_n_n.rhsNonContracting by decide)]
  rfl

/-- The product into a zero accumulator, entry by entry: Σₖ P(g, k) · W(k, o). -/
theorem matmul_zero_apply (x : FVec Ideal S512x64 .bf16) (w : FVec Ideal S64x2 .bf16) (g : Fin 512) (o : Fin 2) :
    matmul (F := Ideal) dot_S512x64_S64x2_S512x2_1_0_0_1_n_n none x w (constant (F := Ideal) S512x2 .f32 0x00000000#32) (ix2 g o)
      = ∑ k : Fin 64, x (ix2 g k) * w (ix2 k o) := by
  refine (Ideal.matmul_constant_zero_apply dot_S512x64_S64x2_S512x2_1_0_0_1_n_n none x w (ix2 g o)).trans ?_
  rw [← Equiv.sum_comp (contrEquiv1 dot_S512x64_S64x2_S512x2_1_0_0_1_n_n 64 rfl rfl).symm]
  refine Finset.sum_congr rfl fun k _ => ?_
  have hk := contrEquiv1_symm_val dot_S512x64_S64x2_S512x2_1_0_0_1_n_n 64 rfl rfl k
  have el : dot_S512x64_S64x2_S512x2_1_0_0_1_n_n.lhsIdx (ix2 g o)
      ((contrEquiv1 dot_S512x64_S64x2_S512x2_1_0_0_1_n_n 64 rfl rfl).symm k) = ix2 g k :=
    funext fun a => Fin.ext (by
      match a with
      | ⟨0, _⟩ => exact lhs_row _ _
      | ⟨1, _⟩ => exact (lhs_col _ _).trans hk)
  have er : dot_S512x64_S64x2_S512x2_1_0_0_1_n_n.rhsIdx (ix2 g o)
      ((contrEquiv1 dot_S512x64_S64x2_S512x2_1_0_0_1_n_n 64 rfl rfl).symm k) = ix2 k o :=
    funext fun a => Fin.ext (by
      match a with
      | ⟨0, _⟩ => exact (rhs_row _ _).trans hk
      | ⟨1, _⟩ => exact rhs_col _ _)
  rw [el, er]

/-! ## The body's result at an entry -/

/-- The format changes and the same-shape casts are the identity, the accumulator is zero, and the 1 × 2 bias array is
    repeated over the 512 rows: the body stores Σₖ P(g, k) · W(k, o) + b(0, o) at row g, column o. -/
theorem pay_apply (x0 : Vec Ideal S512x64 .f32) (x1 : Vec Ideal S64x2 .f32) (x2 : Vec Ideal S1x2 .f32) (g : Fin 512) (o : Fin 2) :
    k4_pay1 (F := Ideal) x0 x1 x2 (ix2 g o) = (∑ k : Fin 64, x0 (ix2 g k) * x1 (ix2 k o)) + x2 (ix2 (0 : Fin 1) o) := by
  unfold k4_pay1
  simp only [shapeCast_self]
  refine (addf_apply _ _ (ix2 g o)).trans ?_
  refine congrArg₂ (· + ·) ?_ ?_
  · exact matmul_zero_apply (truncf .bf16 x0 bitsLt_bf16_f32) (truncf .bf16 x1 bitsLt_bf16_f32) g o
  · exact broadcastTo_1b_ab_apply x2 broadcasts_S1x2_S512x2 g o

/-! ## Where the blocks sit in the arrays -/

theorem hz : (![0, 0] : Fin 2 → Nat) = fun _ => 0 := funext fun a => by fin_cases a <;> rfl

/-- At the one grid point every window takes block (0, 0): each is its whole array. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The pooled array's block is the pooled array. -/
theorem pooled_block_apply (c : Dev nD) (t : Fin cfg4.N) (g : Fin 512) (k : Fin 64) :
    (iblk4 V c 0 t : Vec Ideal S512x64 .f32) (ix2 g k) = (V c main_v87 : S512x64.Idx → EReal) (ix2 g k) := by
  obtain ⟨e0, e1, -, -, -, -, -, -⟩ := idx_facts t
  unfold iblk4
  rw [View.read_apply]
  show (V c main_v87 : S512x64.Idx → EReal) _ = _
  congr 1
  funext a
  apply Fin.ext
  match a with
  | ⟨0, _⟩ => show win4_0.index t (0 : Fin 2) * 512 + 1 * g.val = g.val; rw [e0]; omega
  | ⟨1, _⟩ => show win4_0.index t (1 : Fin 2) * 64 + 1 * k.val = k.val; rw [e1]; omega

/-- The weights' block is the weight array. -/
theorem weight_block_apply (c : Dev nD) (t : Fin cfg4.N) (k : Fin 64) (o : Fin 2) :
    (iblk4 V c 1 t : Vec Ideal S64x2 .f32) (ix2 k o) = (V c main_arg7 : S64x2.Idx → EReal) (ix2 k o) := by
  obtain ⟨-, -, e0, e1, -, -, -, -⟩ := idx_facts t
  unfold iblk4
  rw [View.read_apply]
  show (V c main_arg7 : S64x2.Idx → EReal) _ = _
  congr 1
  funext a
  apply Fin.ext
  match a with
  | ⟨0, _⟩ => show win4_1.index t (0 : Fin 2) * 64 + 1 * k.val = k.val; rw [e0]; omega
  | ⟨1, _⟩ => show win4_1.index t (1 : Fin 2) * 2 + 1 * o.val = o.val; rw [e1]; omega

/-- The bias' block is the 1 × 2 bias array. -/
theorem bias_block_apply (c : Dev nD) (t : Fin cfg4.N) (o : Fin 2) :
    (iblk4 V c 2 t : Vec Ideal S1x2 .f32) (ix2 (0 : Fin 1) o) = (V c main_v88 : S1x2.Idx → EReal) (ix2 (0 : Fin 1) o) := by
  obtain ⟨-, -, -, -, e0, e1, -, -⟩ := idx_facts t
  unfold iblk4
  rw [View.read_apply]
  show (V c main_v88 : S1x2.Idx → EReal) _ = _
  congr 1
  funext a
  apply Fin.ext
  match a with
  | ⟨0, _⟩ => show win4_2.index t (0 : Fin 2) * 1 + 1 * 0 = 0; rw [e0]
  | ⟨1, _⟩ => show win4_2.index t (1 : Fin 2) * 2 + 1 * o.val = o.val; rw [e1]; omega

/-! ## What the point writes back -/

/-- The one point writes back the whole read-out. -/
theorem flushed_eq (c : Dev nD) (t : Fin cfg4.N) :
    (dat4 (F := Ideal) V c).flushed 3 t
      = ((cfg4.win 3).blk t).view.read (Elt Ideal)
          (GcnSpec.readOut (V c main_v87) (V c main_arg7) (GcnSpec.rowOf (V c main_v88))) := by
  show (cfg4.win 3).cut (grid4.coords t) ((dat4 (F := Ideal) V c).after 3 t) = _
  rw [after4_3]
  unfold out4_3
  rw [View.canon_unit_zero hz]
  simp only [View.ld_unit_zero (S := S512x64) hz, View.ld_unit_zero (S := S64x2) hz, View.ld_unit_zero (S := S1x2) hz]
  obtain ⟨-, -, -, -, -, -, e0, e1⟩ := idx_facts t
  refine funext fun (j : S512x2.Idx) => ?_
  obtain ⟨g, o, rfl⟩ : ∃ (g : Fin 512) (o : Fin 2), j = ix2 g o := ⟨j 0, j 1, eq_ix2 j⟩
  have hemb : ((cfg4.win 3).blk t).view.emb (ix2 g o) = (ix2 g o : S512x2.Idx) := by
    funext a
    apply Fin.ext
    match a with
    | ⟨0, _⟩ => show win4_3.index t (0 : Fin 2) * 512 + 1 * g.val = g.val; rw [e0]; omega
    | ⟨1, _⟩ => show win4_3.index t (1 : Fin 2) * 2 + 1 * o.val = o.val; rw [e1]; omega
  show k4_pay1 (F := Ideal) (iblk4 V c 0 t) (iblk4 V c 1 t) (iblk4 V c 2 t) (ix2 g o)
    = GcnSpec.readOut (V c main_v87) (V c main_arg7) (GcnSpec.rowOf (V c main_v88)) (((cfg4.win 3).blk t).view.emb (ix2 g o))
  rw [hemb, GcnSpec.readOut_apply, GcnSpec.rowOf_apply]
  refine (pay_apply (iblk4 V c 0 t) (iblk4 V c 1 t) (iblk4 V c 2 t) g o).trans ?_
  rw [bias_block_apply V c t o]
  refine congrArg (· + _) (Finset.sum_congr rfl fun k _ => ?_)
  rw [pooled_block_apply V c t g k, weight_block_apply V c t k o]

/-! ## The one block is the array -/

/-- An entry is in the point's block iff each coordinate is in the block's range on its axis. -/
theorem mem_blk (t : Fin cfg4.N) (i : S512x2.Idx) :
    i ∈ ((cfg4.win 3).blk t).view.set ↔ ∀ a : Fin 2, win4_3.index t a * S512x2.size a ≤ (i a).val
      ∧ (i a).val < win4_3.index t a * S512x2.size a + S512x2.size a := by
  show i ∈ ((View.whole main_v89).slice (win4_3.rect t)).set ↔ _
  rw [View.set_slice_whole, Rect.mem_set_unit]
  exact Iff.rfl

/-- Block (0, 0) of size 512 × 2 holds every entry. -/
theorem cover (i : S512x2.Idx) :
    ∃ t : Fin cfg4.N, (cfg4.win 3).flush t = true ∧ i ∈ ((cfg4.win 3).blk t).view.set := by
  have hi0 : (i 0).val < 512 := (i 0).isLt
  have hi1 : (i 1).val < 2 := (i 1).isLt
  obtain ⟨-, -, -, -, -, -, e0, e1⟩ := idx_facts t4_0
  refine ⟨t4_0, flush4_3 _, ?_⟩
  rw [mem_blk]
  intro a
  match a with
  | ⟨0, _⟩ =>
    show win4_3.index t4_0 (0 : Fin 2) * 512 ≤ (i 0).val ∧ (i 0).val < win4_3.index t4_0 (0 : Fin 2) * 512 + 512
    rw [e0]; omega
  | ⟨1, _⟩ =>
    show win4_3.index t4_0 (1 : Fin 2) * 2 ≤ (i 1).val ∧ (i 1).val < win4_3.index t4_0 (1 : Fin 2) * 2 + 2
    rw [e1]; omega

/-! ## The array after the region -/

/-- After the one point the result array holds P · W + b of the three arrays the region found. -/
theorem final (c : Dev nD) :
    (dat4 (F := Ideal) V c).arrAt 3 cfg4.N
      = GcnSpec.readOut (V c main_v87) (V c main_arg7) (GcnSpec.rowOf (V c main_v88)) :=
  (dat4 (F := Ideal) V c).arrAt_eq_of_cover 3
    (GcnSpec.readOut (V c main_v87) (V c main_arg7) (GcnSpec.rowOf (V c main_v88)))
    (fun t _ => flushed_eq V c t) cover

end Cert.KernelIdeal.RegionReadOut

end
-- ==== Proof.KChain.lean ====
/-
  The kernel program's result as one function of its arguments. Boundary by boundary: the first region leaves X · W₁ in its
  output array; the stretch after it aggregates that array along the messages and relays the bias row b₁; the second region
  leaves max(A + b₁, 0) · W₂ of the aggregated array A; and so on through the third layer, whose region only adds b₃; the
  last stretch takes the mean over each graph, and the last region reads the 512 × 64 means out through the 64 × 2 layer.
  A region's output array is the whole-array function its blocks are restrictions of (the closed form of each region);
  a stretch's results are the compositions of its operations; the messages' ends and normalisation and the arguments are
  the same at every boundary. Composing the equations gives the network of Cert.GcnHost.
-/
import proofs.«161394_j27771258536143_1_alg».proof.Proof.Gen.KernelIdeal.Frame
import proofs.«161394_j27771258536143_1_alg».proof.Proof.KStable
import proofs.«161394_j27771258536143_1_alg».proof.Proof.RegionProd
import proofs.«161394_j27771258536143_1_alg».proof.Proof.RegionReluProd1
import proofs.«161394_j27771258536143_1_alg».proof.Proof.RegionReluProd2
import proofs.«161394_j27771258536143_1_alg».proof.Proof.RegionAddRow
import proofs.«161394_j27771258536143_1_alg».proof.Proof.RegionReadOut
import Idealize.ShloMosaic.Lib.ValueLayout

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo
open Idealize.ShloMosaic.ValueIdx

/-- A row of length n relaid as 1 × n and read back as a row is the row. -/
theorem rowOf_relaid {n : Nat} (b : (⟨1, ![n]⟩ : Shape).Idx → EReal) (h : (⟨1, ![n]⟩ : Shape).ShapeCasts ⟨2, ![1, n]⟩) :
    GcnSpec.rowOf (shapeCast ⟨2, ![1, n]⟩ b h) = b := by
  funext j
  obtain ⟨k, rfl⟩ : ∃ k : Fin n, j = ix1 k := ⟨j 0, eq_ix1 j⟩
  rw [GcnSpec.rowOf_apply]
  exact shapeCast_a_1a_apply b h 0 k

variable (m : (ℓ : Loc nD τ sig) → Buf (Elt Ideal) ℓ) (ρ : Dev nD → PrngReg) (c : Dev nD)

/-! ## Layer 1 -/

/-- The first region's output array: X · W₁. -/
theorem prod1 : W4 m ρ c (Proc.devRef .tc main_v30) = GcnSpec.matW (m ((c : Thread nD τ).loc main_arg0)) (m ((c : Thread nD τ).loc main_arg1)) :=
  (W4_arr m ρ c 2).trans ((RegionProd.final (V3 m ρ) c).trans
    (congrArg₂ GcnSpec.matW (KStable.arg0_3 m ρ c) (KStable.arg1_3 m ρ c)))

/-- Aggregated along the messages. -/
theorem agg1 : W5 m ρ c (Proc.devRef .tc main_v43) = GcnHost.agg (m ((c : Thread nD τ).loc main_arg9)) (GcnSpec.matW (m ((c : Thread nD τ).loc main_arg0)) (m ((c : Thread nD τ).loc main_arg1))) := by
  refine (KHost.read1_agg (W4 m ρ c)).trans ?_
  rw [prod1 m ρ c,
    show W4 m ρ c (Proc.devRef .tc main_v29) = _ from (KStable.hold4 m ρ c main_v29 (by decide)).trans (KStable.norm3 m ρ c),
    show W4 m ρ c (Proc.devRef .tc main_v3) = _ from (KStable.hold4 m ρ c main_v3 (by decide)).trans (KStable.src3 m ρ c),
    show W4 m ρ c (Proc.devRef .tc main_v6) = _ from (KStable.hold4 m ρ c main_v6 (by decide)).trans (KStable.dst3 m ρ c)]
  rfl

/-- The first bias row, relaid. -/
theorem row1 : W5 m ρ c (Proc.devRef .tc main_v44) = shapeCast S1x64 (m ((c : Thread nD τ).loc main_arg2)) shapeCasts_S64_S1x64 := by
  refine (KHost.read1_row (W4 m ρ c)).trans ?_
  rw [KStable.arg2_4 m ρ c]

/-! ## Layer 2 -/

/-- The second region's output array: max(A₁ + b₁, 0) · W₂. -/
theorem prod2 : W6 m ρ c (Proc.devRef .tc main_v45) = GcnSpec.reluMatW (GcnHost.agg (m ((c : Thread nD τ).loc main_arg9)) (GcnSpec.matW (m ((c : Thread nD τ).loc main_arg0)) (m ((c : Thread nD τ).loc main_arg1)))) (m ((c : Thread nD τ).loc main_arg2)) (m ((c : Thread nD τ).loc main_arg3)) := by
  refine (W6_arr m ρ c 3).trans ((RegionReluProd1.final (V5 m ρ) c).trans ?_)
  rw [show V5 m ρ c main_v43 = _ from agg1 m ρ c, show V5 m ρ c main_v44 = _ from row1 m ρ c,
    show V5 m ρ c main_arg3 = _ from KStable.arg3_5 m ρ c, rowOf_relaid]

theorem agg2 : W7 m ρ c (Proc.devRef .tc main_v58) = GcnHost.agg (m ((c : Thread nD τ).loc main_arg9)) (GcnSpec.reluMatW (GcnHost.agg (m ((c : Thread nD τ).loc main_arg9)) (GcnSpec.matW (m ((c : Thread nD τ).loc main_arg0)) (m ((c : Thread nD τ).loc main_arg1)))) (m ((c : Thread nD τ).loc main_arg2)) (m ((c : Thread nD τ).loc main_arg3))) := by
  refine (KHost.read2_agg (W6 m ρ c)).trans ?_
  rw [prod2 m ρ c,
    show W6 m ρ c (Proc.devRef .tc main_v29) = _ from (KStable.hold6 m ρ c main_v29 (by decide) (by decide) (by decide)).trans (KStable.norm3 m ρ c),
    show W6 m ρ c (Proc.devRef .tc main_v3) = _ from (KStable.hold6 m ρ c main_v3 (by decide) (by decide) (by decide)).trans (KStable.src3 m ρ c),
    show W6 m ρ c (Proc.devRef .tc main_v6) = _ from (KStable.hold6 m ρ c main_v6 (by decide) (by decide) (by decide)).trans (KStable.dst3 m ρ c)]
  rfl

theorem row2 : W7 m ρ c (Proc.devRef .tc main_v59) = shapeCast S1x64 (m ((c : Thread nD τ).loc main_arg4)) shapeCasts_S64_S1x64 := by
  refine (KHost.read2_row (W6 m ρ c)).trans ?_
  rw [KStable.arg4_6 m ρ c]

/-! ## Layer 3 -/

/-- The third region's output array: max(A₂ + b₂, 0) · W₃. -/
theorem prod3 : W8 m ρ c (Proc.devRef .tc main_v60) = GcnSpec.reluMatW (GcnHost.agg (m ((c : Thread nD τ).loc main_arg9)) (GcnSpec.reluMatW (GcnHost.agg (m ((c : Thread nD τ).loc main_arg9)) (GcnSpec.matW (m ((c : Thread nD τ).loc main_arg0)) (m ((c : Thread nD τ).loc main_arg1)))) (m ((c : Thread nD τ).loc main_arg2)) (m ((c : Thread nD τ).loc main_arg3)))) (m ((c : Thread nD τ).loc main_arg4)) (m ((c : Thread nD τ).loc main_arg5)) := by
  refine (W8_arr m ρ c 3).trans ((RegionReluProd2.final (V7 m ρ) c).trans ?_)
  rw [show V7 m ρ c main_v58 = _ from agg2 m ρ c, show V7 m ρ c main_v59 = _ from row2 m ρ c,
    show V7 m ρ c main_arg5 = _ from KStable.arg5_7 m ρ c, rowOf_relaid]

theorem agg3 : W9 m ρ c (Proc.devRef .tc main_v73) = GcnHost.agg (m ((c : Thread nD τ).loc main_arg9)) (GcnSpec.reluMatW (GcnHost.agg (m ((c : Thread nD τ).loc main_arg9)) (GcnSpec.reluMatW (GcnHost.agg (m ((c : Thread nD τ).loc main_arg9)) (GcnSpec.matW (m ((c : Thread nD τ).loc main_arg0)) (m ((c : Thread nD τ).loc main_arg1)))) (m ((c : Thread nD τ).loc main_arg2)) (m ((c : Thread nD τ).loc main_arg3)))) (m ((c : Thread nD τ).loc main_arg4)) (m ((c : Thread nD τ).loc main_arg5))) := by
  refine (KHost.read3_agg (W8 m ρ c)).trans ?_
  rw [prod3 m ρ c,
    show W8 m ρ c (Proc.devRef .tc main_v29) = _ from (KStable.hold8 m ρ c main_v29 (by decide) (by decide) (by decide) (by decide) (by decide)).trans (KStable.norm3 m ρ c),
    show W8 m ρ c (Proc.devRef .tc main_v3) = _ from (KStable.hold8 m ρ c main_v3 (by decide) (by decide) (by decide) (by decide) (by decide)).trans (KStable.src3 m ρ c),
    show W8 m ρ c (Proc.devRef .tc main_v6) = _ from (KStable.hold8 m ρ c main_v6 (by decide) (by decide) (by decide) (by decide) (by decide)).trans (KStable.dst3 m ρ c)]
  rfl

theorem row3 : W9 m ρ c (Proc.devRef .tc main_v74) = shapeCast S1x64 (m ((c : Thread nD τ).loc main_arg6)) shapeCasts_S64_S1x64 := by
  refine (KHost.read3_row (W8 m ρ c)).trans ?_
  rw [KStable.arg6_8 m ρ c]

/-- The fourth region's output array: A₃ + b₃. -/
theorem biased : W10 m ρ c (Proc.devRef .tc main_v75) = GcnSpec.addRow (GcnHost.agg (m ((c : Thread nD τ).loc main_arg9)) (GcnSpec.reluMatW (GcnHost.agg (m ((c : Thread nD τ).loc main_arg9)) (GcnSpec.reluMatW (GcnHost.agg (m ((c : Thread nD τ).loc main_arg9)) (GcnSpec.matW (m ((c : Thread nD τ).loc main_arg0)) (m ((c : Thread nD τ).loc main_arg1)))) (m ((c : Thread nD τ).loc main_arg2)) (m ((c : Thread nD τ).loc main_arg3)))) (m ((c : Thread nD τ).loc main_arg4)) (m ((c : Thread nD τ).loc main_arg5)))) (m ((c : Thread nD τ).loc main_arg6)) := by
  refine (W10_arr m ρ c 2).trans ((RegionAddRow.final (V9 m ρ) c).trans ?_)
  rw [show V9 m ρ c main_v73 = _ from agg3 m ρ c, show V9 m ρ c main_v74 = _ from row3 m ρ c, rowOf_relaid]

/-! ## Pooling and read-out -/

/-- The mean over each graph. -/
theorem pooled : W11 m ρ c (Proc.devRef .tc main_v87) = GcnHost.pool (m ((c : Thread nD τ).loc main_arg10)) (GcnSpec.addRow (GcnHost.agg (m ((c : Thread nD τ).loc main_arg9)) (GcnSpec.reluMatW (GcnHost.agg (m ((c : Thread nD τ).loc main_arg9)) (GcnSpec.reluMatW (GcnHost.agg (m ((c : Thread nD τ).loc main_arg9)) (GcnSpec.matW (m ((c : Thread nD τ).loc main_arg0)) (m ((c : Thread nD τ).loc main_arg1)))) (m ((c : Thread nD τ).loc main_arg2)) (m ((c : Thread nD τ).loc main_arg3)))) (m ((c : Thread nD τ).loc main_arg4)) (m ((c : Thread nD τ).loc main_arg5)))) (m ((c : Thread nD τ).loc main_arg6))) := by
  refine (KHost.read4_pool (W10 m ρ c)).trans ?_
  rw [biased m ρ c, KStable.arg10_10 m ρ c]

theorem rowL : W11 m ρ c (Proc.devRef .tc main_v88) = shapeCast S1x2 (m ((c : Thread nD τ).loc main_arg8)) shapeCasts_S2_S1x2 := by
  refine (KHost.read4_row (W10 m ρ c)).trans ?_
  rw [KStable.arg8_10 m ρ c]

/-- THE RESULT: the last region's output array is the network of the launched arguments. -/
theorem result : W12 m ρ c (Proc.devRef .tc main_v89)
    = GcnHost.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W12_arr m ρ c 3).trans ((RegionReadOut.final (V11 m ρ) c).trans ?_)
  rw [show V11 m ρ c main_v87 = _ from pooled m ρ c, show V11 m ρ c main_v88 = _ from rowL m ρ c,
    show V11 m ρ c main_arg7 = _ from KStable.arg7_11 m ρ c, rowOf_relaid]
  rfl

end Cert.KernelIdeal.KChain

end
-- ==== Proof.KValue.lean ====
/-
  The kernel program's run with its result as the network of its arguments: every weakly fair execution terminates, faults
  nowhere, leaves the arguments as launched, and leaves in the result buffer the three-layer graph convolution, the mean
  over each graph and the read-out of the launched arguments — the run's last boundary contents, read through the chain of
  boundary equations.
-/
import proofs.«161394_j27771258536143_1_alg».proof.Proof.KRun
import proofs.«161394_j27771258536143_1_alg».proof.Proof.KChain

noncomputable section

namespace Cert.KernelIdeal.KValue

open Cert.KernelIdeal Cert.KernelIdeal.Gen Idealize.ShloMosaic Idealize.ShloMosaic.TcCoe Idealize.SL.Sem

/-- The kernel program computes the network. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v89)
        = GcnHost.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans (KChain.result m ρ c), (h c).2⟩) (KRun.run_named (F := Ideal) m ρ)

end Cert.KernelIdeal.KValue

end
-- ==== Proof.RefOps.lean ====
/-
  The reference program's @main as a straight line of 192 host operations, and what every weakly fair execution of it
  leaves in memory: each buffer at the fold of the operations' results over the launch contents. The eleven argument
  buffers are written by no operation, so they keep their launch contents.
-/
import proofs.«161394_j27771258536143_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 192 operations, in order (a called function's operations stand in its call's place, spelt `TRef.…`). -/
abbrev ops : List (HloOp τ sig (Elt F)) :=
  [ nullary main_v0 (iotaInDim S50000 32 0),
    unary main_arg9 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg9 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_arg0 main_arg1 main_v7 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v3 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v3 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    unary main_v30 main_v31 (broadcastInDim S850000x1 ![0] bcast_S850000_S850000x1_0 : (⟨S850000, .f32⟩ : BufTy).Contents (Elt F) → (⟨S850000x1, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v7 main_v37 main_v38 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v31 main_v39 (broadcastInDim S850000x64 ![0, 1] bcast_S850000x1_S850000x64_0_1 : (⟨S850000x1, .f32⟩ : BufTy).Contents (Elt F) → (⟨S850000x64, .f32⟩ : BufTy).Contents (Elt F)),
    binary main_v39 main_v38 main_v40 (mulf : (⟨S850000x64, .f32⟩ : BufTy).Contents (Elt F) → (⟨S850000x64, .f32⟩ : BufTy).Contents (Elt F) → (⟨S850000x64, .f32⟩ : BufTy).Contents (Elt F)),
    nullary main_cst_8 (constant S_ .f32 0x00000000#32),
    unary main_cst_8 main_v41 (broadcastInDim S50000x64 ![] bcast_S_S50000x64 : (⟨S_, .f32⟩ : BufTy).Contents (Elt F) → (⟨S50000x64, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg2 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v46) (TRef.of (T := ⟨S50000x64, .f32⟩) main_call1_v0) (TRef.of (T := ⟨S50000x64, .f32⟩) main_v47) maximumf,
    binary main_v47 main_arg3 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_9 (constant S_ .f32 0x3F800000#32),
    unary main_cst_9 main_v49 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v50 (broadcastInDim S50000 ![] bcast_S_S50000 : (⟨S_, .f32⟩ : BufTy).Contents (Elt F) → (⟨S50000, .f32⟩ : BufTy).Contents (Elt F)),
    unary main_v6 main_v51 (broadcastInDim S850000x1 ![0] bcast_S850000_S850000x1_0 : (⟨S850000, .i32⟩ : BufTy).Contents (Elt F) → (⟨S850000x1, .i32⟩ : BufTy).Contents (Elt F)),
    ternary main_v50 main_v51 main_v49 main_v52 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v53 (broadcastInDim S50000 ![] bcast_S_S50000 : (⟨S_, .f32⟩ : BufTy).Contents (Elt F) → (⟨S50000, .f32⟩ : BufTy).Contents (Elt F)),
    binary main_v52 main_v53 main_v54 (cmpf .ogt : (⟨S50000, .f32⟩ : BufTy).Contents (Elt F) → (⟨S50000, .f32⟩ : BufTy).Contents (Elt F) → (⟨S50000, .i1⟩ : BufTy).Contents (Elt F)),
    unary main_v52 main_v55 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v54) (TRef.of (T := ⟨S50000, .f32⟩) main_v55) (TRef.of (T := ⟨S50000, .f32⟩) main_call2_v1) (TRef.of (T := ⟨S50000, .f32⟩) main_v56) select,
    nullary main_c_13 (constantI S_ 32 0#32),
    unary main_c_13 main_v57 (broadcastInDim S850000 ![] bcast_S_S850000 : (⟨S_, .i32⟩ : BufTy).Contents (Elt F) → (⟨S850000, .i32⟩ : BufTy).Contents (Elt F)),
    binary main_v3 main_v57 main_v58 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v59 (broadcastInDim S850000 ![] bcast_S_S850000 : (⟨S_, .i32⟩ : BufTy).Contents (Elt F) → (⟨S850000, .i32⟩ : BufTy).Contents (Elt F)),
    binary main_v3 main_v59 main_v60 (addi : (⟨S850000, .i32⟩ : BufTy).Contents (Elt F) → (⟨S850000, .i32⟩ : BufTy).Contents (Elt F) → (⟨S850000, .i32⟩ : BufTy).Contents (Elt F)),
    ternary main_v58 main_v60 main_v3 main_v61 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v61 main_v62 (broadcastInDim S850000x1 ![0] bcast_S850000_S850000x1_0 : (⟨S850000, .i32⟩ : BufTy).Contents (Elt F) → (⟨S850000x1, .i32⟩ : BufTy).Contents (Elt F)),
    binary main_v56 main_v62 main_v63 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v64 (broadcastInDim S850000 ![] bcast_S_S850000 : (⟨S_, .i32⟩ : BufTy).Contents (Elt F) → (⟨S850000, .i32⟩ : BufTy).Contents (Elt F)),
    binary main_v6 main_v64 main_v65 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v66 (broadcastInDim S850000 ![] bcast_S_S850000 : (⟨S_, .i32⟩ : BufTy).Contents (Elt F) → (⟨S850000, .i32⟩ : BufTy).Contents (Elt F)),
    binary main_v6 main_v66 main_v67 (addi : (⟨S850000, .i32⟩ : BufTy).Contents (Elt F) → (⟨S850000, .i32⟩ : BufTy).Contents (Elt F) → (⟨S850000, .i32⟩ : BufTy).Contents (Elt F)),
    ternary main_v65 main_v67 main_v6 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v68 main_v69 (broadcastInDim S850000x1 ![0] bcast_S850000_S850000x1_0 : (⟨S850000, .i32⟩ : BufTy).Contents (Elt F) → (⟨S850000x1, .i32⟩ : BufTy).Contents (Elt F)),
    binary main_v56 main_v69 main_v70 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v63 main_v70 main_v71 (mulf : (⟨S850000, .f32⟩ : BufTy).Contents (Elt F) → (⟨S850000, .f32⟩ : BufTy).Contents (Elt F) → (⟨S850000, .f32⟩ : BufTy).Contents (Elt F)),
    unary main_v71 main_v72 (broadcastInDim S850000x1 ![0] bcast_S850000_S850000x1_0 : (⟨S850000, .f32⟩ : BufTy).Contents (Elt F) → (⟨S850000x1, .f32⟩ : BufTy).Contents (Elt F)),
    nullary main_c_17 (constantI S_ 32 0#32),
    unary main_c_17 main_v73 (broadcastInDim S850000 ![] bcast_S_S850000 : (⟨S_, .i32⟩ : BufTy).Contents (Elt F) → (⟨S850000, .i32⟩ : BufTy).Contents (Elt F)),
    binary main_v3 main_v73 main_v74 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v75 (broadcastInDim S850000 ![] bcast_S_S850000 : (⟨S_, .i32⟩ : BufTy).Contents (Elt F) → (⟨S850000, .i32⟩ : BufTy).Contents (Elt F)),
    binary main_v3 main_v75 main_v76 (addi : (⟨S850000, .i32⟩ : BufTy).Contents (Elt F) → (⟨S850000, .i32⟩ : BufTy).Contents (Elt F) → (⟨S850000, .i32⟩ : BufTy).Contents (Elt F)),
    ternary main_v74 main_v76 main_v3 main_v77 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v77 main_v78 (broadcastInDim S850000x1 ![0] bcast_S850000_S850000x1_0 : (⟨S850000, .i32⟩ : BufTy).Contents (Elt F) → (⟨S850000x1, .i32⟩ : BufTy).Contents (Elt F)),
    binary main_v48 main_v78 main_v79 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v72 main_v80 (broadcastInDim S850000x64 ![0, 1] bcast_S850000x1_S850000x64_0_1 : (⟨S850000x1, .f32⟩ : BufTy).Contents (Elt F) → (⟨S850000x64, .f32⟩ : BufTy).Contents (Elt F)),
    binary main_v80 main_v79 main_v81 (mulf : (⟨S850000x64, .f32⟩ : BufTy).Contents (Elt F) → (⟨S850000x64, .f32⟩ : BufTy).Contents (Elt F) → (⟨S850000x64, .f32⟩ : BufTy).Contents (Elt F)),
    nullary main_cst_19 (constant S_ .f32 0x00000000#32),
    unary main_cst_19 main_v82 (broadcastInDim S50000x64 ![] bcast_S_S50000x64 : (⟨S_, .f32⟩ : BufTy).Contents (Elt F) → (⟨S50000x64, .f32⟩ : BufTy).Contents (Elt F)),
    unary main_v6 main_v83 (broadcastInDim S850000x1 ![0] bcast_S850000_S850000x1_0 : (⟨S850000, .i32⟩ : BufTy).Contents (Elt F) → (⟨S850000x1, .i32⟩ : BufTy).Contents (Elt F)),
    ternary main_v82 main_v83 main_v81 main_v84 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg4 main_v85 (broadcastInDim S1x64 ![1] bcast_S64_S1x64_1 : (⟨S64, .f32⟩ : BufTy).Contents (Elt F) → (⟨S1x64, .f32⟩ : BufTy).Contents (Elt F)),
    unary main_v85 main_v86 (broadcastInDim S50000x64 ![0, 1] bcast_S1x64_S50000x64_0_1 : (⟨S1x64, .f32⟩ : BufTy).Contents (Elt F) → (⟨S50000x64, .f32⟩ : BufTy).Contents (Elt F)),
    binary main_v84 main_v86 main_v87 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v87) (TRef.of (T := ⟨S50000x64, .f32⟩) main_call3_v0) (TRef.of (T := ⟨S50000x64, .f32⟩) main_v88) maximumf,
    binary main_v88 main_arg5 main_v89 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_20 (constant S_ .f32 0x3F800000#32),
    unary main_cst_20 main_v90 (broadcastInDim S850000 ![] bcast_S_S850000 : (⟨S_, .f32⟩ : BufTy).Contents (Elt F) → (⟨S850000, .f32⟩ : BufTy).Contents (Elt F)),
    nullary main_cst_21 (constant S_ .f32 0x00000000#32),
    unary main_cst_21 main_v91 (broadcastInDim S50000 ![] bcast_S_S50000 : (⟨S_, .f32⟩ : BufTy).Contents (Elt F) → (⟨S50000, .f32⟩ : BufTy).Contents (Elt F)),
    unary main_v6 main_v92 (broadcastInDim S850000x1 ![0] bcast_S850000_S850000x1_0 : (⟨S850000, .i32⟩ : BufTy).Contents (Elt F) → (⟨S850000x1, .i32⟩ : BufTy).Contents (Elt F)),
    ternary main_v91 main_v92 main_v90 main_v93 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_22 (constant S_ .f32 0x00000000#32),
    unary main_cst_22 main_v94 (broadcastInDim S50000 ![] bcast_S_S50000 : (⟨S_, .f32⟩ : BufTy).Contents (Elt F) → (⟨S50000, .f32⟩ : BufTy).Contents (Elt F)),
    binary main_v93 main_v94 main_v95 (cmpf .ogt : (⟨S50000, .f32⟩ : BufTy).Contents (Elt F) → (⟨S50000, .f32⟩ : BufTy).Contents (Elt F) → (⟨S50000, .i1⟩ : BufTy).Contents (Elt F)),
    unary main_v93 main_v96 (Host.rsqrt : (⟨S50000, .f32⟩ : BufTy).Contents (Elt F) → (⟨S50000, .f32⟩ : BufTy).Contents (Elt F)),
    nullary main_cst_23 (constant S_ .f32 0x00000000#32),
    TRef.unary (TRef.of (T := ⟨S_, .f32⟩) main_cst_23) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v95) (TRef.of (T := ⟨S50000, .f32⟩) main_v96) (TRef.of (T := ⟨S50000, .f32⟩) main_call4_v1) (TRef.of (T := ⟨S50000, .f32⟩) main_v97) select,
    nullary main_c_24 (constantI S_ 32 0#32),
    unary main_c_24 main_v98 (broadcastInDim S850000 ![] bcast_S_S850000 : (⟨S_, .i32⟩ : BufTy).Contents (Elt F) → (⟨S850000, .i32⟩ : BufTy).Contents (Elt F)),
    binary main_v3 main_v98 main_v99 (cmpi .slt : (⟨S850000, .i32⟩ : BufTy).Contents (Elt F) → (⟨S850000, .i32⟩ : BufTy).Contents (Elt F) → (⟨S850000, .i1⟩ : BufTy).Contents (Elt F)),
    nullary main_c_25 (constantI S_ 32 50000#32),
    unary main_c_25 main_v100 (broadcastInDim S850000 ![] bcast_S_S850000 : (⟨S_, .i32⟩ : BufTy).Contents (Elt F) → (⟨S850000, .i32⟩ : BufTy).Contents (Elt F)),
    binary main_v3 main_v100 main_v101 (addi : (⟨S850000, .i32⟩ : BufTy).Contents (Elt F) → (⟨S850000, .i32⟩ : BufTy).Contents (Elt F) → (⟨S850000, .i32⟩ : BufTy).Contents (Elt F)),
    ternary main_v99 main_v101 main_v3 main_v102 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v102 main_v103 (broadcastInDim S850000x1 ![0] bcast_S850000_S850000x1_0 : (⟨S850000, .i32⟩ : BufTy).Contents (Elt F) → (⟨S850000x1, .i32⟩ : BufTy).Contents (Elt F)),
    binary main_v97 main_v103 main_v104 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_26 (constantI S_ 32 0#32),
    unary main_c_26 main_v105 (broadcastInDim S850000 ![] bcast_S_S850000 : (⟨S_, .i32⟩ : BufTy).Contents (Elt F) → (⟨S850000, .i32⟩ : BufTy).Contents (Elt F)),
    binary main_v6 main_v105 main_v106 (cmpi .slt : (⟨S850000, .i32⟩ : BufTy).Contents (Elt F) → (⟨S850000, .i32⟩ : BufTy).Contents (Elt F) → (⟨S850000, .i1⟩ : BufTy).Contents (Elt F)),
    nullary main_c_27 (constantI S_ 32 50000#32),
    unary main_c_27 main_v107 (broadcastInDim S850000 ![] bcast_S_S850000 : (⟨S_, .i32⟩ : BufTy).Contents (Elt F) → (⟨S850000, .i32⟩ : BufTy).Contents (Elt F)),
    binary main_v6 main_v107 main_v108 (addi : (⟨S850000, .i32⟩ : BufTy).Contents (Elt F) → (⟨S850000, .i32⟩ : BufTy).Contents (Elt F) → (⟨S850000, .i32⟩ : BufTy).Contents (Elt F)),
    ternary main_v106 main_v108 main_v6 main_v109 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v109 main_v110 (broadcastInDim S850000x1 ![0] bcast_S850000_S850000x1_0 : (⟨S850000, .i32⟩ : BufTy).Contents (Elt F) → (⟨S850000x1, .i32⟩ : BufTy).Contents (Elt F)),
    binary main_v97 main_v110 main_v111 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v104 main_v111 main_v112 (mulf : (⟨S850000, .f32⟩ : BufTy).Contents (Elt F) → (⟨S850000, .f32⟩ : BufTy).Contents (Elt F) → (⟨S850000, .f32⟩ : BufTy).Contents (Elt F)),
    unary main_v112 main_v113 (broadcastInDim S850000x1 ![0] bcast_S850000_S850000x1_0 : (⟨S850000, .f32⟩ : BufTy).Contents (Elt F) → (⟨S850000x1, .f32⟩ : BufTy).Contents (Elt F)),
    nullary main_c_28 (constantI S_ 32 0#32),
    unary main_c_28 main_v114 (broadcastInDim S850000 ![] bcast_S_S850000 : (⟨S_, .i32⟩ : BufTy).Contents (Elt F) → (⟨S850000, .i32⟩ : BufTy).Contents (Elt F)),
    binary main_v3 main_v114 main_v115 (cmpi .slt : (⟨S850000, .i32⟩ : BufTy).Contents (Elt F) → (⟨S850000, .i32⟩ : BufTy).Contents (Elt F) → (⟨S850000, .i1⟩ : BufTy).Contents (Elt F)),
    nullary main_c_29 (constantI S_ 32 50000#32),
    unary main_c_29 main_v116 (broadcastInDim S850000 ![] bcast_S_S850000 : (⟨S_, .i32⟩ : BufTy).Contents (Elt F) → (⟨S850000, .i32⟩ : BufTy).Contents (Elt F)),
    binary main_v3 main_v116 main_v117 (addi : (⟨S850000, .i32⟩ : BufTy).Contents (Elt F) → (⟨S850000, .i32⟩ : BufTy).Contents (Elt F) → (⟨S850000, .i32⟩ : BufTy).Contents (Elt F)),
    ternary main_v115 main_v117 main_v3 main_v118 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v118 main_v119 (broadcastInDim S850000x1 ![0] bcast_S850000_S850000x1_0 : (⟨S850000, .i32⟩ : BufTy).Contents (Elt F) → (⟨S850000x1, .i32⟩ : BufTy).Contents (Elt F)),
    binary main_v89 main_v119 main_v120 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v113 main_v121 (broadcastInDim S850000x64 ![0, 1] bcast_S850000x1_S850000x64_0_1 : (⟨S850000x1, .f32⟩ : BufTy).Contents (Elt F) → (⟨S850000x64, .f32⟩ : BufTy).Contents (Elt F)),
    binary main_v121 main_v120 main_v122 (mulf : (⟨S850000x64, .f32⟩ : BufTy).Contents (Elt F) → (⟨S850000x64, .f32⟩ : BufTy).Contents (Elt F) → (⟨S850000x64, .f32⟩ : BufTy).Contents (Elt F)),
    nullary main_cst_30 (constant S_ .f32 0x00000000#32),
    unary main_cst_30 main_v123 (broadcastInDim S50000x64 ![] bcast_S_S50000x64 : (⟨S_, .f32⟩ : BufTy).Contents (Elt F) → (⟨S50000x64, .f32⟩ : BufTy).Contents (Elt F)),
    unary main_v6 main_v124 (broadcastInDim S850000x1 ![0] bcast_S850000_S850000x1_0 : (⟨S850000, .i32⟩ : BufTy).Contents (Elt F) → (⟨S850000x1, .i32⟩ : BufTy).Contents (Elt F)),
    ternary main_v123 main_v124 main_v122 main_v125 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg6 main_v126 (broadcastInDim S1x64 ![1] bcast_S64_S1x64_1 : (⟨S64, .f32⟩ : BufTy).Contents (Elt F) → (⟨S1x64, .f32⟩ : BufTy).Contents (Elt F)),
    unary main_v126 main_v127 (broadcastInDim S50000x64 ![0, 1] bcast_S1x64_S50000x64_0_1 : (⟨S1x64, .f32⟩ : BufTy).Contents (Elt F) → (⟨S50000x64, .f32⟩ : BufTy).Contents (Elt F)),
    binary main_v125 main_v127 main_v128 (addf : (⟨S50000x64, .f32⟩ : BufTy).Contents (Elt F) → (⟨S50000x64, .f32⟩ : BufTy).Contents (Elt F) → (⟨S50000x64, .f32⟩ : BufTy).Contents (Elt F)),
    nullary main_cst_31 (constant S_ .f32 0x00000000#32),
    unary main_cst_31 main_v129 (broadcastInDim S512x64 ![] bcast_S_S512x64 : (⟨S_, .f32⟩ : BufTy).Contents (Elt F) → (⟨S512x64, .f32⟩ : BufTy).Contents (Elt F)),
    unary main_arg10 main_v130 (broadcastInDim S50000x1 ![0] bcast_S50000_S50000x1_0 : (⟨S50000, .i32⟩ : BufTy).Contents (Elt F) → (⟨S50000x1, .i32⟩ : BufTy).Contents (Elt F)),
    ternary main_v129 main_v130 main_v128 main_v131 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    nullary main_cst_32 (constant S_ .f32 0x3F800000#32),
    unary main_cst_32 main_v132 (broadcastInDim S50000 ![] bcast_S_S50000 : (⟨S_, .f32⟩ : BufTy).Contents (Elt F) → (⟨S50000, .f32⟩ : BufTy).Contents (Elt F)),
    nullary main_cst_33 (constant S_ .f32 0x00000000#32),
    unary main_cst_33 main_v133 (broadcastInDim S512 ![] bcast_S_S512 : (⟨S_, .f32⟩ : BufTy).Contents (Elt F) → (⟨S512, .f32⟩ : BufTy).Contents (Elt F)),
    unary main_arg10 main_v134 (broadcastInDim S50000x1 ![0] bcast_S50000_S50000x1_0 : (⟨S50000, .i32⟩ : BufTy).Contents (Elt F) → (⟨S50000x1, .i32⟩ : BufTy).Contents (Elt F)),
    ternary main_v133 main_v134 main_v132 main_v135 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    nullary main_cst_34 (constant S_ .f32 0x3F800000#32),
    unary main_cst_34 main_v136 (broadcastInDim S512 ![] bcast_S_S512 : (⟨S_, .f32⟩ : BufTy).Contents (Elt F) → (⟨S512, .f32⟩ : BufTy).Contents (Elt F)),
    binary main_v135 main_v136 main_v137 (maximumf : (⟨S512, .f32⟩ : BufTy).Contents (Elt F) → (⟨S512, .f32⟩ : BufTy).Contents (Elt F) → (⟨S512, .f32⟩ : BufTy).Contents (Elt F)),
    unary main_v137 main_v138 (broadcastInDim S512x1 ![0] bcast_S512_S512x1_0 : (⟨S512, .f32⟩ : BufTy).Contents (Elt F) → (⟨S512x1, .f32⟩ : BufTy).Contents (Elt F)),
    unary main_v138 main_v139 (broadcastInDim S512x64 ![0, 1] bcast_S512x1_S512x64_0_1 : (⟨S512x1, .f32⟩ : BufTy).Contents (Elt F) → (⟨S512x64, .f32⟩ : BufTy).Contents (Elt F)),
    binary main_v131 main_v139 main_v140 (Host.divf : (⟨S512x64, .f32⟩ : BufTy).Contents (Elt F) → (⟨S512x64, .f32⟩ : BufTy).Contents (Elt F) → (⟨S512x64, .f32⟩ : BufTy).Contents (Elt F)),
    binary main_v140 main_arg7 main_v141 ((fun l r => Host.dotGeneral dot_S512x64_S64x2_S512x2_1_0_0_1_n_n none l r) : (⟨S512x64, .f32⟩ : BufTy).Contents (Elt F) → (⟨S64x2, .f32⟩ : BufTy).Contents (Elt F) → (⟨S512x2, .f32⟩ : BufTy).Contents (Elt F)),
    unary main_arg8 main_v142 (broadcastInDim S1x2 ![1] bcast_S2_S1x2_1 : (⟨S2, .f32⟩ : BufTy).Contents (Elt F) → (⟨S1x2, .f32⟩ : BufTy).Contents (Elt F)),
    unary main_v142 main_v143 (broadcastInDim S512x2 ![0, 1] bcast_S1x2_S512x2_0_1 : (⟨S1x2, .f32⟩ : BufTy).Contents (Elt F) → (⟨S512x2, .f32⟩ : BufTy).Contents (Elt F)),
    binary main_v141 main_v143 main_v144 (addf : (⟨S512x2, .f32⟩ : BufTy).Contents (Elt F) → (⟨S512x2, .f32⟩ : BufTy).Contents (Elt F) → (⟨S512x2, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

/-- Every weakly fair execution of @main terminates with each buffer at the fold of the 192 operations' results over
    the device's launch contents. -/
theorem raw (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ

/-! ## The arguments: no operation writes one -/

set_option maxRecDepth 8192 in
set_option maxHeartbeats 76800000 in
theorem keep_arg0 (W : Valuation τ sig (Elt F)) : after (ops (F := F)) W (Proc.devRef .tc main_arg0) = W (Proc.devRef .tc main_arg0) := by
  after_results_simp
set_option maxRecDepth 8192 in
set_option maxHeartbeats 76800000 in
theorem keep_arg1 (W : Valuation τ sig (Elt F)) : after (ops (F := F)) W (Proc.devRef .tc main_arg1) = W (Proc.devRef .tc main_arg1) := by
  after_results_simp
set_option maxRecDepth 8192 in
set_option maxHeartbeats 76800000 in
theorem keep_arg2 (W : Valuation τ sig (Elt F)) : after (ops (F := F)) W (Proc.devRef .tc main_arg2) = W (Proc.devRef .tc main_arg2) := by
  after_results_simp
set_option maxRecDepth 8192 in
set_option maxHeartbeats 76800000 in
theorem keep_arg3 (W : Valuation τ sig (Elt F)) : after (ops (F := F)) W (Proc.devRef .tc main_arg3) = W (Proc.devRef .tc main_arg3) := by
  after_results_simp
set_option maxRecDepth 8192 in
set_option maxHeartbeats 76800000 in
theorem keep_arg4 (W : Valuation τ sig (Elt F)) : after (ops (F := F)) W (Proc.devRef .tc main_arg4) = W (Proc.devRef .tc main_arg4) := by
  after_results_simp
set_option maxRecDepth 8192 in
set_option maxHeartbeats 76800000 in
theorem keep_arg5 (W : Valuation τ sig (Elt F)) : after (ops (F := F)) W (Proc.devRef .tc main_arg5) = W (Proc.devRef .tc main_arg5) := by
  after_results_simp
set_option maxRecDepth 8192 in
set_option maxHeartbeats 76800000 in
theorem keep_arg6 (W : Valuation τ sig (Elt F)) : after (ops (F := F)) W (Proc.devRef .tc main_arg6) = W (Proc.devRef .tc main_arg6) := by
  after_results_simp
set_option maxRecDepth 8192 in
set_option maxHeartbeats 76800000 in
theorem keep_arg7 (W : Valuation τ sig (Elt F)) : after (ops (F := F)) W (Proc.devRef .tc main_arg7) = W (Proc.devRef .tc main_arg7) := by
  after_results_simp
set_option maxRecDepth 8192 in
set_option maxHeartbeats 76800000 in
theorem keep_arg8 (W : Valuation τ sig (Elt F)) : after (ops (F := F)) W (Proc.devRef .tc main_arg8) = W (Proc.devRef .tc main_arg8) := by
  after_results_simp
set_option maxRecDepth 8192 in
set_option maxHeartbeats 76800000 in
theorem keep_arg9 (W : Valuation τ sig (Elt F)) : after (ops (F := F)) W (Proc.devRef .tc main_arg9) = W (Proc.devRef .tc main_arg9) := by
  after_results_simp
set_option maxRecDepth 8192 in
set_option maxHeartbeats 76800000 in
theorem keep_arg10 (W : Valuation τ sig (Elt F)) : after (ops (F := F)) W (Proc.devRef .tc main_arg10) = W (Proc.devRef .tc main_arg10) := by
  after_results_simp

end Cert.ReferenceIdeal.RefRun

end
-- ==== Proof.RefDense.lean ====
/-
  The dense pieces of the network, as the host's own operations, read index by index at the extended reals: the host's
  contraction over the 64 features is the finite sum of products, a row broadcast [n] → [1, n] → [rows, n] reads the
  row at the column, the zero splat reads the zero word. Each piece is then the corresponding sum of Cert.GcnSpec, and
  the network stated with the host's operations is the network stated with those sums.
-/
import proofs.«161394_j27771258536143_1_alg».proof.Proof.GcnHost
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRun

open Cert.ReferenceIdeal Cert.ReferenceIdeal.Gen Idealize.ShloMosaic Idealize.ShloMosaic.ValueIdx
open scoped BigOperators

/-! ### The contraction S50000x64 · S64x64: operand indices at an output index and a contraction index -/

theorem lhs_n_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem lhs_n_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q
theorem rhs_n_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q
theorem rhs_n_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- The host's contraction read at (r, j): the sum over the 64 features of the products of row r of the left operand
    with column j of the right one. -/
theorem dot_n_apply (x : FVec Ideal S50000x64 .f32) (w : FVec Ideal S64x64 .f32) (r : Fin 50000) (j : Fin 64) :
    Host.dotGeneral (F := Ideal) dot_S50000x64_S64x64_S50000x64_1_0_0_1_n_n none x w (ix2 r j) = ∑ k : Fin 64, x (ix2 r k) * w (ix2 k j) := by
  simp only [Host.dotGeneral]
  rw [Ideal.dotGeneral_apply, ← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 r j) ((contrEquiv1 dot_S50000x64_S64x64_S50000x64_1_0_0_1_n_n 64 rfl rfl).symm k) = ix2 r k := funext fun a => Fin.ext (by
    match a with
    | ⟨0, _⟩ => exact lhs_n_0 _ _
    | ⟨1, _⟩ => exact (lhs_n_1 _ _).trans hk)
  have er : dot_S50000x64_S64x64_S50000x64_1_0_0_1_n_n.rhsIdx (ix2 r j) ((contrEquiv1 dot_S50000x64_S64x64_S50000x64_1_0_0_1_n_n 64 rfl rfl).symm k) = ix2 k j := funext fun a => Fin.ext (by
    match a with
    | ⟨0, _⟩ => exact (rhs_n_0 _ _).trans hk
    | ⟨1, _⟩ => exact rhs_n_1 _ _)
  rw [el, er]

/-! ### The contraction S512x64 · S64x2: operand indices at an output index and a contraction index -/

theorem lhs_p_0 (i : S512x2.Idx) (q : dot_S512x64_S64x2_S512x2_1_0_0_1_n_n.contr.Idx) :
    (dot_S512x64_S64x2_S512x2_1_0_0_1_n_n.lhsIdx i q 0).val = (i 0).val := by
  unfold DotDims.lhsIdx
  rw [dif_neg (show ¬(0 : Fin S512x64.rank) ∈ dot_S512x64_S64x2_S512x2_1_0_0_1_n_n.lhsBatch by decide), dif_pos (show (0 : Fin S512x64.rank) ∈ dot_S512x64_S64x2_S512x2_1_0_0_1_n_n.lhsNonContracting by decide)]
  rfl
theorem lhs_p_1 (i : S512x2.Idx) (q : dot_S512x64_S64x2_S512x2_1_0_0_1_n_n.contr.Idx) :
    (dot_S512x64_S64x2_S512x2_1_0_0_1_n_n.lhsIdx i q 1).val = (q ⟨0, by decide⟩).val :=
  dot_S512x64_S64x2_S512x2_1_0_0_1_n_n.lhsIdx_val_of_single rfl i q
theorem rhs_p_0 (i : S512x2.Idx) (q : dot_S512x64_S64x2_S512x2_1_0_0_1_n_n.contr.Idx) :
    (dot_S512x64_S64x2_S512x2_1_0_0_1_n_n.rhsIdx i q 0).val = (q ⟨0, by decide⟩).val :=
  dot_S512x64_S64x2_S512x2_1_0_0_1_n_n.rhsIdx_val_of_single rfl i q
theorem rhs_p_1 (i : S512x2.Idx) (q : dot_S512x64_S64x2_S512x2_1_0_0_1_n_n.contr.Idx) :
    (dot_S512x64_S64x2_S512x2_1_0_0_1_n_n.rhsIdx i q 1).val = (i 1).val := by
  unfold DotDims.rhsIdx
  rw [dif_neg (show ¬(1 : Fin S64x2.rank) ∈ dot_S512x64_S64x2_S512x2_1_0_0_1_n_n.rhsBatch by decide), dif_pos (show (1 : Fin S64x2.rank) ∈ dot_S512x64_S64x2_S512x2_1_0_0_1_n_n.rhsNonContracting by decide)]
  rfl

/-- The host's contraction read at (r, j): the sum over the 64 features of the products of row r of the left operand
    with column j of the right one. -/
theorem dot_p_apply (x : FVec Ideal S512x64 .f32) (w : FVec Ideal S64x2 .f32) (r : Fin 512) (j : Fin 2) :
    Host.dotGeneral (F := Ideal) dot_S512x64_S64x2_S512x2_1_0_0_1_n_n none x w (ix2 r j) = ∑ k : Fin 64, x (ix2 r k) * w (ix2 k j) := by
  simp only [Host.dotGeneral]
  rw [Ideal.dotGeneral_apply, ← Equiv.sum_comp (contrEquiv1 dot_S512x64_S64x2_S512x2_1_0_0_1_n_n 64 rfl rfl).symm]
  refine Finset.sum_congr rfl fun k _ => ?_
  have hk := contrEquiv1_symm_val dot_S512x64_S64x2_S512x2_1_0_0_1_n_n 64 rfl rfl k
  have el : dot_S512x64_S64x2_S512x2_1_0_0_1_n_n.lhsIdx (ix2 r j) ((contrEquiv1 dot_S512x64_S64x2_S512x2_1_0_0_1_n_n 64 rfl rfl).symm k) = ix2 r k := funext fun a => Fin.ext (by
    match a with
    | ⟨0, _⟩ => exact lhs_p_0 _ _
    | ⟨1, _⟩ => exact (lhs_p_1 _ _).trans hk)
  have er : dot_S512x64_S64x2_S512x2_1_0_0_1_n_n.rhsIdx (ix2 r j) ((contrEquiv1 dot_S512x64_S64x2_S512x2_1_0_0_1_n_n 64 rfl rfl).symm k) = ix2 k j := funext fun a => Fin.ext (by
    match a with
    | ⟨0, _⟩ => exact (rhs_p_0 _ _).trans hk
    | ⟨1, _⟩ => exact rhs_p_1 _ _)
  rw [el, er]

/-! ### The row broadcasts and the zero splat at an index -/

/-- A row of length 64 broadcast to 1 × 64 and then over the 50000 nodes reads, at (r, j), the row at j. -/
theorem rowBcast_n_apply (b : FVec Ideal S64 .f32) (r : Fin 50000) (j : Fin 64) :
    broadcastInDim S50000x64 ![0, 1] bcast_S1x64_S50000x64_0_1 (broadcastInDim S1x64 ![1] bcast_S64_S1x64_1 b) (ix2 r j) = b (ix1 j) :=
  (broadcastInDim_apply _ bcast_S1x64_S50000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])).trans
  (broadcastInDim_apply _ bcast_S64_S1x64_1 b (ix2 (0 : Fin 1) j) (ix1 j) (fun a => match a with
    | ⟨0, _⟩ => by show j.val = if (64 : Nat) = 1 then 0 else j.val; rw [if_neg (by decide)]))

/-- A row of length 2 broadcast to 1 × 2 and then over the 512 graphs reads, at (g, o), the row at o. -/
theorem rowBcast_p_apply (b : FVec Ideal S2 .f32) (g : Fin 512) (o : Fin 2) :
    broadcastInDim S512x2 ![0, 1] bcast_S1x2_S512x2_0_1 (broadcastInDim S1x2 ![1] bcast_S2_S1x2_1 b) (ix2 g o) = b (ix1 o) :=
  (broadcastInDim_apply _ bcast_S1x2_S512x2_0_1 _ (ix2 g o) (ix2 (0 : Fin 1) o) (fun a => match a with
    | ⟨0, _⟩ => by show 0 = if (1 : Nat) = 1 then 0 else g.val; rw [if_pos rfl]
    | ⟨1, _⟩ => by show o.val = if (2 : Nat) = 1 then 0 else o.val; rw [if_neg (by decide)])).trans
  (broadcastInDim_apply _ bcast_S2_S1x2_1 b (ix2 (0 : Fin 1) o) (ix1 o) (fun a => match a with
    | ⟨0, _⟩ => by show o.val = if (2 : Nat) = 1 then 0 else o.val; rw [if_neg (by decide)]))

/-- The zero word splat over nodes × features reads the zero word everywhere. -/
theorem zeroSplat_apply (i : S50000x64.Idx) :
    broadcastInDim S50000x64 ![] bcast_S_S50000x64 (constant (F := Ideal) S_ .f32 0x00000000#32) i = Ideal.ofBits .f32 0x00000000#32 :=
  broadcastInDim_apply _ bcast_S_S50000x64 (constant (F := Ideal) S_ .f32 0x00000000#32) i (fun a => a.elim0) (fun a => a.elim0)

/-! ### The four dense pieces -/

theorem hostProd_eq (x : FVec Ideal S50000x64 .f32) (w : FVec Ideal S64x64 .f32) : GcnHost.hostProd x w = GcnSpec.matW x w := by
  funext i
  obtain ⟨r, j, rfl⟩ : ∃ (r : Fin 50000) (j : Fin 64), i = ix2 r j := ⟨i 0, i 1, eq_ix2 i⟩
  rw [GcnSpec.matW_apply]
  exact dot_n_apply x w r j

theorem hostAddRow_apply (a : FVec Ideal S50000x64 .f32) (b : FVec Ideal S64 .f32) (r : Fin 50000) (j : Fin 64) :
    GcnHost.hostAddRow a b (ix2 r j) = a (ix2 r j) + b (ix1 j) := by
  unfold GcnHost.hostAddRow
  rw [addf_apply, rowBcast_n_apply]

theorem hostAddRow_eq (a : FVec Ideal S50000x64 .f32) (b : FVec Ideal S64 .f32) : GcnHost.hostAddRow a b = GcnSpec.addRow a b := by
  funext i
  obtain ⟨r, j, rfl⟩ : ∃ (r : Fin 50000) (j : Fin 64), i = ix2 r j := ⟨i 0, i 1, eq_ix2 i⟩
  rw [GcnSpec.addRow_apply]
  exact hostAddRow_apply a b r j

theorem hostReluProd_eq (a : FVec Ideal S50000x64 .f32) (b : FVec Ideal S64 .f32) (w : FVec Ideal S64x64 .f32) :
    GcnHost.hostReluProd a b w = GcnSpec.reluMatW a b w := by
  funext i
  obtain ⟨r, j, rfl⟩ : ∃ (r : Fin 50000) (j : Fin 64), i = ix2 r j := ⟨i 0, i 1, eq_ix2 i⟩
  rw [GcnSpec.reluMatW_apply]
  unfold GcnHost.hostReluProd GcnHost.hostProd
  rw [dot_n_apply]
  refine Finset.sum_congr rfl fun k _ => ?_
  rw [maximumf_apply, zeroSplat_apply, hostAddRow_apply]

theorem hostReadOut_eq (p : FVec Ideal S512x64 .f32) (w : FVec Ideal S64x2 .f32) (b : FVec Ideal S2 .f32) :
    GcnHost.hostReadOut p w b = GcnSpec.readOut p w b := by
  funext i
  obtain ⟨g, o, rfl⟩ : ∃ (g : Fin 512) (o : Fin 2), i = ix2 g o := ⟨i 0, i 1, eq_ix2 i⟩
  rw [GcnSpec.readOut_apply]
  unfold GcnHost.hostReadOut
  rw [addf_apply, rowBcast_p_apply, dot_p_apply]

/-! ### The whole network -/

theorem wholeHost_eq (x : FVec Ideal S50000x64 .f32) (w1 : FVec Ideal S64x64 .f32) (b1 : FVec Ideal S64 .f32) (w2 : FVec Ideal S64x64 .f32)
    (b2 : FVec Ideal S64 .f32) (w3 : FVec Ideal S64x64 .f32) (b3 : FVec Ideal S64 .f32) (wl : FVec Ideal S64x2 .f32)
    (bl : FVec Ideal S2 .f32) (e : IVec S2x800000 32) (g : IVec S50000 32) :
    GcnHost.wholeHost x w1 b1 w2 b2 w3 b3 wl bl e g = GcnHost.whole x w1 b1 w2 b2 w3 b3 wl bl e g := by
  unfold GcnHost.wholeHost GcnHost.whole
  simp only [hostProd_eq, hostReluProd_eq, hostAddRow_eq, hostReadOut_eq]

end Cert.ReferenceIdeal.RefRun

end
-- ==== Proof.RefRun.lean ====
/-
  The reference program's run, read back: every weakly fair execution of its @main ends with the result buffer at the
  three-layer network of Cert.GcnHost applied to the launch contents of the eleven arguments, the arguments unchanged.
  The 192 operations are read in two stretches. The first seven build the two lists of message ends (a slice of the
  edge list, flattened, joined with the node numbers); the other 185 compute the network from those two lists and the
  arguments. The value of the result buffer after all of them is, operation for operation, the network stated with the
  host's own dense operations (the program computes the degrees and the normalisation three times with identical
  operations; the network states them once); the dense operations are then the sums of Cert.GcnSpec.
-/
import proofs.«161394_j27771258536143_1_alg».proof.Proof.Gen.ReferenceIdeal
import proofs.«161394_j27771258536143_1_alg».proof.Proof.GcnHost
import proofs.«161394_j27771258536143_1_alg».proof.Proof.RefOps
import proofs.«161394_j27771258536143_1_alg».proof.Proof.RefDense
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

section Split

variable {F : FTy → Type} [FloatOps F]

/-- The first seven operations: the node numbers, and the two rows of the edge list, each flattened and joined with them. -/
abbrev pre7 : List (HloOp τ sig (Elt F)) :=
  [ nullary main_v0 (iotaInDim S50000 32 0),
    unary main_arg9 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg9 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The other 185 operations: the network, from the two lists of message ends and the arguments. -/
abbrev post : List (HloOp τ sig (Elt F)) :=
  [ binary main_arg0 main_arg1 main_v7 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v3 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v3 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    unary main_v30 main_v31 (broadcastInDim S850000x1 ![0] bcast_S850000_S850000x1_0 : (⟨S850000, .f32⟩ : BufTy).Contents (Elt F) → (⟨S850000x1, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v7 main_v37 main_v38 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v31 main_v39 (broadcastInDim S850000x64 ![0, 1] bcast_S850000x1_S850000x64_0_1 : (⟨S850000x1, .f32⟩ : BufTy).Contents (Elt F) → (⟨S850000x64, .f32⟩ : BufTy).Contents (Elt F)),
    binary main_v39 main_v38 main_v40 (mulf : (⟨S850000x64, .f32⟩ : BufTy).Contents (Elt F) → (⟨S850000x64, .f32⟩ : BufTy).Contents (Elt F) → (⟨S850000x64, .f32⟩ : BufTy).Contents (Elt F)),
    nullary main_cst_8 (constant S_ .f32 0x00000000#32),
    unary main_cst_8 main_v41 (broadcastInDim S50000x64 ![] bcast_S_S50000x64 : (⟨S_, .f32⟩ : BufTy).Contents (Elt F) → (⟨S50000x64, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg2 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v46) (TRef.of (T := ⟨S50000x64, .f32⟩) main_call1_v0) (TRef.of (T := ⟨S50000x64, .f32⟩) main_v47) maximumf,
    binary main_v47 main_arg3 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_9 (constant S_ .f32 0x3F800000#32),
    unary main_cst_9 main_v49 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v50 (broadcastInDim S50000 ![] bcast_S_S50000 : (⟨S_, .f32⟩ : BufTy).Contents (Elt F) → (⟨S50000, .f32⟩ : BufTy).Contents (Elt F)),
    unary main_v6 main_v51 (broadcastInDim S850000x1 ![0] bcast_S850000_S850000x1_0 : (⟨S850000, .i32⟩ : BufTy).Contents (Elt F) → (⟨S850000x1, .i32⟩ : BufTy).Contents (Elt F)),
    ternary main_v50 main_v51 main_v49 main_v52 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v53 (broadcastInDim S50000 ![] bcast_S_S50000 : (⟨S_, .f32⟩ : BufTy).Contents (Elt F) → (⟨S50000, .f32⟩ : BufTy).Contents (Elt F)),
    binary main_v52 main_v53 main_v54 (cmpf .ogt : (⟨S50000, .f32⟩ : BufTy).Contents (Elt F) → (⟨S50000, .f32⟩ : BufTy).Contents (Elt F) → (⟨S50000, .i1⟩ : BufTy).Contents (Elt F)),
    unary main_v52 main_v55 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v54) (TRef.of (T := ⟨S50000, .f32⟩) main_v55) (TRef.of (T := ⟨S50000, .f32⟩) main_call2_v1) (TRef.of (T := ⟨S50000, .f32⟩) main_v56) select,
    nullary main_c_13 (constantI S_ 32 0#32),
    unary main_c_13 main_v57 (broadcastInDim S850000 ![] bcast_S_S850000 : (⟨S_, .i32⟩ : BufTy).Contents (Elt F) → (⟨S850000, .i32⟩ : BufTy).Contents (Elt F)),
    binary main_v3 main_v57 main_v58 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v59 (broadcastInDim S850000 ![] bcast_S_S850000 : (⟨S_, .i32⟩ : BufTy).Contents (Elt F) → (⟨S850000, .i32⟩ : BufTy).Contents (Elt F)),
    binary main_v3 main_v59 main_v60 (addi : (⟨S850000, .i32⟩ : BufTy).Contents (Elt F) → (⟨S850000, .i32⟩ : BufTy).Contents (Elt F) → (⟨S850000, .i32⟩ : BufTy).Contents (Elt F)),
    ternary main_v58 main_v60 main_v3 main_v61 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v61 main_v62 (broadcastInDim S850000x1 ![0] bcast_S850000_S850000x1_0 : (⟨S850000, .i32⟩ : BufTy).Contents (Elt F) → (⟨S850000x1, .i32⟩ : BufTy).Contents (Elt F)),
    binary main_v56 main_v62 main_v63 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v64 (broadcastInDim S850000 ![] bcast_S_S850000 : (⟨S_, .i32⟩ : BufTy).Contents (Elt F) → (⟨S850000, .i32⟩ : BufTy).Contents (Elt F)),
    binary main_v6 main_v64 main_v65 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v66 (broadcastInDim S850000 ![] bcast_S_S850000 : (⟨S_, .i32⟩ : BufTy).Contents (Elt F) → (⟨S850000, .i32⟩ : BufTy).Contents (Elt F)),
    binary main_v6 main_v66 main_v67 (addi : (⟨S850000, .i32⟩ : BufTy).Contents (Elt F) → (⟨S850000, .i32⟩ : BufTy).Contents (Elt F) → (⟨S850000, .i32⟩ : BufTy).Contents (Elt F)),
    ternary main_v65 main_v67 main_v6 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v68 main_v69 (broadcastInDim S850000x1 ![0] bcast_S850000_S850000x1_0 : (⟨S850000, .i32⟩ : BufTy).Contents (Elt F) → (⟨S850000x1, .i32⟩ : BufTy).Contents (Elt F)),
    binary main_v56 main_v69 main_v70 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v63 main_v70 main_v71 (mulf : (⟨S850000, .f32⟩ : BufTy).Contents (Elt F) → (⟨S850000, .f32⟩ : BufTy).Contents (Elt F) → (⟨S850000, .f32⟩ : BufTy).Contents (Elt F)),
    unary main_v71 main_v72 (broadcastInDim S850000x1 ![0] bcast_S850000_S850000x1_0 : (⟨S850000, .f32⟩ : BufTy).Contents (Elt F) → (⟨S850000x1, .f32⟩ : BufTy).Contents (Elt F)),
    nullary main_c_17 (constantI S_ 32 0#32),
    unary main_c_17 main_v73 (broadcastInDim S850000 ![] bcast_S_S850000 : (⟨S_, .i32⟩ : BufTy).Contents (Elt F) → (⟨S850000, .i32⟩ : BufTy).Contents (Elt F)),
    binary main_v3 main_v73 main_v74 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v75 (broadcastInDim S850000 ![] bcast_S_S850000 : (⟨S_, .i32⟩ : BufTy).Contents (Elt F) → (⟨S850000, .i32⟩ : BufTy).Contents (Elt F)),
    binary main_v3 main_v75 main_v76 (addi : (⟨S850000, .i32⟩ : BufTy).Contents (Elt F) → (⟨S850000, .i32⟩ : BufTy).Contents (Elt F) → (⟨S850000, .i32⟩ : BufTy).Contents (Elt F)),
    ternary main_v74 main_v76 main_v3 main_v77 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v77 main_v78 (broadcastInDim S850000x1 ![0] bcast_S850000_S850000x1_0 : (⟨S850000, .i32⟩ : BufTy).Contents (Elt F) → (⟨S850000x1, .i32⟩ : BufTy).Contents (Elt F)),
    binary main_v48 main_v78 main_v79 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v72 main_v80 (broadcastInDim S850000x64 ![0, 1] bcast_S850000x1_S850000x64_0_1 : (⟨S850000x1, .f32⟩ : BufTy).Contents (Elt F) → (⟨S850000x64, .f32⟩ : BufTy).Contents (Elt F)),
    binary main_v80 main_v79 main_v81 (mulf : (⟨S850000x64, .f32⟩ : BufTy).Contents (Elt F) → (⟨S850000x64, .f32⟩ : BufTy).Contents (Elt F) → (⟨S850000x64, .f32⟩ : BufTy).Contents (Elt F)),
    nullary main_cst_19 (constant S_ .f32 0x00000000#32),
    unary main_cst_19 main_v82 (broadcastInDim S50000x64 ![] bcast_S_S50000x64 : (⟨S_, .f32⟩ : BufTy).Contents (Elt F) → (⟨S50000x64, .f32⟩ : BufTy).Contents (Elt F)),
    unary main_v6 main_v83 (broadcastInDim S850000x1 ![0] bcast_S850000_S850000x1_0 : (⟨S850000, .i32⟩ : BufTy).Contents (Elt F) → (⟨S850000x1, .i32⟩ : BufTy).Contents (Elt F)),
    ternary main_v82 main_v83 main_v81 main_v84 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg4 main_v85 (broadcastInDim S1x64 ![1] bcast_S64_S1x64_1 : (⟨S64, .f32⟩ : BufTy).Contents (Elt F) → (⟨S1x64, .f32⟩ : BufTy).Contents (Elt F)),
    unary main_v85 main_v86 (broadcastInDim S50000x64 ![0, 1] bcast_S1x64_S50000x64_0_1 : (⟨S1x64, .f32⟩ : BufTy).Contents (Elt F) → (⟨S50000x64, .f32⟩ : BufTy).Contents (Elt F)),
    binary main_v84 main_v86 main_v87 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v87) (TRef.of (T := ⟨S50000x64, .f32⟩) main_call3_v0) (TRef.of (T := ⟨S50000x64, .f32⟩) main_v88) maximumf,
    binary main_v88 main_arg5 main_v89 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_20 (constant S_ .f32 0x3F800000#32),
    unary main_cst_20 main_v90 (broadcastInDim S850000 ![] bcast_S_S850000 : (⟨S_, .f32⟩ : BufTy).Contents (Elt F) → (⟨S850000, .f32⟩ : BufTy).Contents (Elt F)),
    nullary main_cst_21 (constant S_ .f32 0x00000000#32),
    unary main_cst_21 main_v91 (broadcastInDim S50000 ![] bcast_S_S50000 : (⟨S_, .f32⟩ : BufTy).Contents (Elt F) → (⟨S50000, .f32⟩ : BufTy).Contents (Elt F)),
    unary main_v6 main_v92 (broadcastInDim S850000x1 ![0] bcast_S850000_S850000x1_0 : (⟨S850000, .i32⟩ : BufTy).Contents (Elt F) → (⟨S850000x1, .i32⟩ : BufTy).Contents (Elt F)),
    ternary main_v91 main_v92 main_v90 main_v93 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_22 (constant S_ .f32 0x00000000#32),
    unary main_cst_22 main_v94 (broadcastInDim S50000 ![] bcast_S_S50000 : (⟨S_, .f32⟩ : BufTy).Contents (Elt F) → (⟨S50000, .f32⟩ : BufTy).Contents (Elt F)),
    binary main_v93 main_v94 main_v95 (cmpf .ogt : (⟨S50000, .f32⟩ : BufTy).Contents (Elt F) → (⟨S50000, .f32⟩ : BufTy).Contents (Elt F) → (⟨S50000, .i1⟩ : BufTy).Contents (Elt F)),
    unary main_v93 main_v96 (Host.rsqrt : (⟨S50000, .f32⟩ : BufTy).Contents (Elt F) → (⟨S50000, .f32⟩ : BufTy).Contents (Elt F)),
    nullary main_cst_23 (constant S_ .f32 0x00000000#32),
    TRef.unary (TRef.of (T := ⟨S_, .f32⟩) main_cst_23) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v95) (TRef.of (T := ⟨S50000, .f32⟩) main_v96) (TRef.of (T := ⟨S50000, .f32⟩) main_call4_v1) (TRef.of (T := ⟨S50000, .f32⟩) main_v97) select,
    nullary main_c_24 (constantI S_ 32 0#32),
    unary main_c_24 main_v98 (broadcastInDim S850000 ![] bcast_S_S850000 : (⟨S_, .i32⟩ : BufTy).Contents (Elt F) → (⟨S850000, .i32⟩ : BufTy).Contents (Elt F)),
    binary main_v3 main_v98 main_v99 (cmpi .slt : (⟨S850000, .i32⟩ : BufTy).Contents (Elt F) → (⟨S850000, .i32⟩ : BufTy).Contents (Elt F) → (⟨S850000, .i1⟩ : BufTy).Contents (Elt F)),
    nullary main_c_25 (constantI S_ 32 50000#32),
    unary main_c_25 main_v100 (broadcastInDim S850000 ![] bcast_S_S850000 : (⟨S_, .i32⟩ : BufTy).Contents (Elt F) → (⟨S850000, .i32⟩ : BufTy).Contents (Elt F)),
    binary main_v3 main_v100 main_v101 (addi : (⟨S850000, .i32⟩ : BufTy).Contents (Elt F) → (⟨S850000, .i32⟩ : BufTy).Contents (Elt F) → (⟨S850000, .i32⟩ : BufTy).Contents (Elt F)),
    ternary main_v99 main_v101 main_v3 main_v102 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v102 main_v103 (broadcastInDim S850000x1 ![0] bcast_S850000_S850000x1_0 : (⟨S850000, .i32⟩ : BufTy).Contents (Elt F) → (⟨S850000x1, .i32⟩ : BufTy).Contents (Elt F)),
    binary main_v97 main_v103 main_v104 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_26 (constantI S_ 32 0#32),
    unary main_c_26 main_v105 (broadcastInDim S850000 ![] bcast_S_S850000 : (⟨S_, .i32⟩ : BufTy).Contents (Elt F) → (⟨S850000, .i32⟩ : BufTy).Contents (Elt F)),
    binary main_v6 main_v105 main_v106 (cmpi .slt : (⟨S850000, .i32⟩ : BufTy).Contents (Elt F) → (⟨S850000, .i32⟩ : BufTy).Contents (Elt F) → (⟨S850000, .i1⟩ : BufTy).Contents (Elt F)),
    nullary main_c_27 (constantI S_ 32 50000#32),
    unary main_c_27 main_v107 (broadcastInDim S850000 ![] bcast_S_S850000 : (⟨S_, .i32⟩ : BufTy).Contents (Elt F) → (⟨S850000, .i32⟩ : BufTy).Contents (Elt F)),
    binary main_v6 main_v107 main_v108 (addi : (⟨S850000, .i32⟩ : BufTy).Contents (Elt F) → (⟨S850000, .i32⟩ : BufTy).Contents (Elt F) → (⟨S850000, .i32⟩ : BufTy).Contents (Elt F)),
    ternary main_v106 main_v108 main_v6 main_v109 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v109 main_v110 (broadcastInDim S850000x1 ![0] bcast_S850000_S850000x1_0 : (⟨S850000, .i32⟩ : BufTy).Contents (Elt F) → (⟨S850000x1, .i32⟩ : BufTy).Contents (Elt F)),
    binary main_v97 main_v110 main_v111 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v104 main_v111 main_v112 (mulf : (⟨S850000, .f32⟩ : BufTy).Contents (Elt F) → (⟨S850000, .f32⟩ : BufTy).Contents (Elt F) → (⟨S850000, .f32⟩ : BufTy).Contents (Elt F)),
    unary main_v112 main_v113 (broadcastInDim S850000x1 ![0] bcast_S850000_S850000x1_0 : (⟨S850000, .f32⟩ : BufTy).Contents (Elt F) → (⟨S850000x1, .f32⟩ : BufTy).Contents (Elt F)),
    nullary main_c_28 (constantI S_ 32 0#32),
    unary main_c_28 main_v114 (broadcastInDim S850000 ![] bcast_S_S850000 : (⟨S_, .i32⟩ : BufTy).Contents (Elt F) → (⟨S850000, .i32⟩ : BufTy).Contents (Elt F)),
    binary main_v3 main_v114 main_v115 (cmpi .slt : (⟨S850000, .i32⟩ : BufTy).Contents (Elt F) → (⟨S850000, .i32⟩ : BufTy).Contents (Elt F) → (⟨S850000, .i1⟩ : BufTy).Contents (Elt F)),
    nullary main_c_29 (constantI S_ 32 50000#32),
    unary main_c_29 main_v116 (broadcastInDim S850000 ![] bcast_S_S850000 : (⟨S_, .i32⟩ : BufTy).Contents (Elt F) → (⟨S850000, .i32⟩ : BufTy).Contents (Elt F)),
    binary main_v3 main_v116 main_v117 (addi : (⟨S850000, .i32⟩ : BufTy).Contents (Elt F) → (⟨S850000, .i32⟩ : BufTy).Contents (Elt F) → (⟨S850000, .i32⟩ : BufTy).Contents (Elt F)),
    ternary main_v115 main_v117 main_v3 main_v118 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v118 main_v119 (broadcastInDim S850000x1 ![0] bcast_S850000_S850000x1_0 : (⟨S850000, .i32⟩ : BufTy).Contents (Elt F) → (⟨S850000x1, .i32⟩ : BufTy).Contents (Elt F)),
    binary main_v89 main_v119 main_v120 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v113 main_v121 (broadcastInDim S850000x64 ![0, 1] bcast_S850000x1_S850000x64_0_1 : (⟨S850000x1, .f32⟩ : BufTy).Contents (Elt F) → (⟨S850000x64, .f32⟩ : BufTy).Contents (Elt F)),
    binary main_v121 main_v120 main_v122 (mulf : (⟨S850000x64, .f32⟩ : BufTy).Contents (Elt F) → (⟨S850000x64, .f32⟩ : BufTy).Contents (Elt F) → (⟨S850000x64, .f32⟩ : BufTy).Contents (Elt F)),
    nullary main_cst_30 (constant S_ .f32 0x00000000#32),
    unary main_cst_30 main_v123 (broadcastInDim S50000x64 ![] bcast_S_S50000x64 : (⟨S_, .f32⟩ : BufTy).Contents (Elt F) → (⟨S50000x64, .f32⟩ : BufTy).Contents (Elt F)),
    unary main_v6 main_v124 (broadcastInDim S850000x1 ![0] bcast_S850000_S850000x1_0 : (⟨S850000, .i32⟩ : BufTy).Contents (Elt F) → (⟨S850000x1, .i32⟩ : BufTy).Contents (Elt F)),
    ternary main_v123 main_v124 main_v122 main_v125 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg6 main_v126 (broadcastInDim S1x64 ![1] bcast_S64_S1x64_1 : (⟨S64, .f32⟩ : BufTy).Contents (Elt F) → (⟨S1x64, .f32⟩ : BufTy).Contents (Elt F)),
    unary main_v126 main_v127 (broadcastInDim S50000x64 ![0, 1] bcast_S1x64_S50000x64_0_1 : (⟨S1x64, .f32⟩ : BufTy).Contents (Elt F) → (⟨S50000x64, .f32⟩ : BufTy).Contents (Elt F)),
    binary main_v125 main_v127 main_v128 (addf : (⟨S50000x64, .f32⟩ : BufTy).Contents (Elt F) → (⟨S50000x64, .f32⟩ : BufTy).Contents (Elt F) → (⟨S50000x64, .f32⟩ : BufTy).Contents (Elt F)),
    nullary main_cst_31 (constant S_ .f32 0x00000000#32),
    unary main_cst_31 main_v129 (broadcastInDim S512x64 ![] bcast_S_S512x64 : (⟨S_, .f32⟩ : BufTy).Contents (Elt F) → (⟨S512x64, .f32⟩ : BufTy).Contents (Elt F)),
    unary main_arg10 main_v130 (broadcastInDim S50000x1 ![0] bcast_S50000_S50000x1_0 : (⟨S50000, .i32⟩ : BufTy).Contents (Elt F) → (⟨S50000x1, .i32⟩ : BufTy).Contents (Elt F)),
    ternary main_v129 main_v130 main_v128 main_v131 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    nullary main_cst_32 (constant S_ .f32 0x3F800000#32),
    unary main_cst_32 main_v132 (broadcastInDim S50000 ![] bcast_S_S50000 : (⟨S_, .f32⟩ : BufTy).Contents (Elt F) → (⟨S50000, .f32⟩ : BufTy).Contents (Elt F)),
    nullary main_cst_33 (constant S_ .f32 0x00000000#32),
    unary main_cst_33 main_v133 (broadcastInDim S512 ![] bcast_S_S512 : (⟨S_, .f32⟩ : BufTy).Contents (Elt F) → (⟨S512, .f32⟩ : BufTy).Contents (Elt F)),
    unary main_arg10 main_v134 (broadcastInDim S50000x1 ![0] bcast_S50000_S50000x1_0 : (⟨S50000, .i32⟩ : BufTy).Contents (Elt F) → (⟨S50000x1, .i32⟩ : BufTy).Contents (Elt F)),
    ternary main_v133 main_v134 main_v132 main_v135 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    nullary main_cst_34 (constant S_ .f32 0x3F800000#32),
    unary main_cst_34 main_v136 (broadcastInDim S512 ![] bcast_S_S512 : (⟨S_, .f32⟩ : BufTy).Contents (Elt F) → (⟨S512, .f32⟩ : BufTy).Contents (Elt F)),
    binary main_v135 main_v136 main_v137 (maximumf : (⟨S512, .f32⟩ : BufTy).Contents (Elt F) → (⟨S512, .f32⟩ : BufTy).Contents (Elt F) → (⟨S512, .f32⟩ : BufTy).Contents (Elt F)),
    unary main_v137 main_v138 (broadcastInDim S512x1 ![0] bcast_S512_S512x1_0 : (⟨S512, .f32⟩ : BufTy).Contents (Elt F) → (⟨S512x1, .f32⟩ : BufTy).Contents (Elt F)),
    unary main_v138 main_v139 (broadcastInDim S512x64 ![0, 1] bcast_S512x1_S512x64_0_1 : (⟨S512x1, .f32⟩ : BufTy).Contents (Elt F) → (⟨S512x64, .f32⟩ : BufTy).Contents (Elt F)),
    binary main_v131 main_v139 main_v140 (Host.divf : (⟨S512x64, .f32⟩ : BufTy).Contents (Elt F) → (⟨S512x64, .f32⟩ : BufTy).Contents (Elt F) → (⟨S512x64, .f32⟩ : BufTy).Contents (Elt F)),
    binary main_v140 main_arg7 main_v141 ((fun l r => Host.dotGeneral dot_S512x64_S64x2_S512x2_1_0_0_1_n_n none l r) : (⟨S512x64, .f32⟩ : BufTy).Contents (Elt F) → (⟨S64x2, .f32⟩ : BufTy).Contents (Elt F) → (⟨S512x2, .f32⟩ : BufTy).Contents (Elt F)),
    unary main_arg8 main_v142 (broadcastInDim S1x2 ![1] bcast_S2_S1x2_1 : (⟨S2, .f32⟩ : BufTy).Contents (Elt F) → (⟨S1x2, .f32⟩ : BufTy).Contents (Elt F)),
    unary main_v142 main_v143 (broadcastInDim S512x2 ![0, 1] bcast_S1x2_S512x2_0_1 : (⟨S1x2, .f32⟩ : BufTy).Contents (Elt F) → (⟨S512x2, .f32⟩ : BufTy).Contents (Elt F)),
    binary main_v141 main_v143 main_v144 (addf : (⟨S512x2, .f32⟩ : BufTy).Contents (Elt F) → (⟨S512x2, .f32⟩ : BufTy).Contents (Elt F) → (⟨S512x2, .f32⟩ : BufTy).Contents (Elt F)) ]

set_option maxRecDepth 8192 in
set_option maxHeartbeats 4000000 in
theorem ops_split : (ops : List (HloOp τ sig (Elt F))) = pre7 ++ post := rfl

/-- The contents after two stretches run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Split

/-! ## The first stretch -/

/-- Joining two pairs of equal lists gives equal lists. -/
theorem join_congr {a a' : IVec S800000 32} {b b' : IVec S50000 32} (ha : a = a') (hb : b = b') :
    concatenate S850000 0 [⟨S800000, a⟩, ⟨S50000, b⟩] concatenates_S800000_S50000_S850000_d0
      = concatenate S850000 0 [⟨S800000, a'⟩, ⟨S50000, b'⟩] concatenates_S800000_S50000_S850000_d0 := by
  subst ha; subst hb; rfl

set_option maxRecDepth 8192 in
set_option maxHeartbeats 4000000 in
theorem pre_v3 (W : Valuation τ sig (Elt Ideal)) :
    after (pre7 (F := Ideal)) W (Proc.devRef .tc main_v3) = GcnHost.srcOf (W (Proc.devRef .tc main_arg9)) := by
  after_results_simp
  unfold GcnHost.srcOf
  refine join_congr ?_ ?_ <;> after_results_simp <;> rfl

set_option maxRecDepth 8192 in
set_option maxHeartbeats 4000000 in
theorem pre_v6 (W : Valuation τ sig (Elt Ideal)) :
    after (pre7 (F := Ideal)) W (Proc.devRef .tc main_v6) = GcnHost.dstOf (W (Proc.devRef .tc main_arg9)) := by
  after_results_simp
  unfold GcnHost.dstOf
  refine join_congr ?_ ?_ <;> after_results_simp <;> rfl

theorem pre_arg0 (W : Valuation τ sig (Elt Ideal)) :
    after (pre7 (F := Ideal)) W (Proc.devRef .tc main_arg0) = W (Proc.devRef .tc main_arg0) := by
  after_results_simp
theorem pre_arg1 (W : Valuation τ sig (Elt Ideal)) :
    after (pre7 (F := Ideal)) W (Proc.devRef .tc main_arg1) = W (Proc.devRef .tc main_arg1) := by
  after_results_simp
theorem pre_arg2 (W : Valuation τ sig (Elt Ideal)) :
    after (pre7 (F := Ideal)) W (Proc.devRef .tc main_arg2) = W (Proc.devRef .tc main_arg2) := by
  after_results_simp
theorem pre_arg3 (W : Valuation τ sig (Elt Ideal)) :
    after (pre7 (F := Ideal)) W (Proc.devRef .tc main_arg3) = W (Proc.devRef .tc main_arg3) := by
  after_results_simp
theorem pre_arg4 (W : Valuation τ sig (Elt Ideal)) :
    after (pre7 (F := Ideal)) W (Proc.devRef .tc main_arg4) = W (Proc.devRef .tc main_arg4) := by
  after_results_simp
theorem pre_arg5 (W : Valuation τ sig (Elt Ideal)) :
    after (pre7 (F := Ideal)) W (Proc.devRef .tc main_arg5) = W (Proc.devRef .tc main_arg5) := by
  after_results_simp
theorem pre_arg6 (W : Valuation τ sig (Elt Ideal)) :
    after (pre7 (F := Ideal)) W (Proc.devRef .tc main_arg6) = W (Proc.devRef .tc main_arg6) := by
  after_results_simp
theorem pre_arg7 (W : Valuation τ sig (Elt Ideal)) :
    after (pre7 (F := Ideal)) W (Proc.devRef .tc main_arg7) = W (Proc.devRef .tc main_arg7) := by
  after_results_simp
theorem pre_arg8 (W : Valuation τ sig (Elt Ideal)) :
    after (pre7 (F := Ideal)) W (Proc.devRef .tc main_arg8) = W (Proc.devRef .tc main_arg8) := by
  after_results_simp
theorem pre_arg10 (W : Valuation τ sig (Elt Ideal)) :
    after (pre7 (F := Ideal)) W (Proc.devRef .tc main_arg10) = W (Proc.devRef .tc main_arg10) := by
  after_results_simp

/-! ## The second stretch -/

/-- The network from given lists of message ends s (sources) and d (destinations), dense pieces as host operations. -/
def netOf (x : FVec Ideal S50000x64 .f32) (w1 : FVec Ideal S64x64 .f32) (b1 : FVec Ideal S64 .f32) (w2 : FVec Ideal S64x64 .f32)
    (b2 : FVec Ideal S64 .f32) (w3 : FVec Ideal S64x64 .f32) (b3 : FVec Ideal S64 .f32) (wl : FVec Ideal S64x2 .f32)
    (bl : FVec Ideal S2 .f32) (s d : IVec S850000 32) (g : IVec S50000 32) : FVec Ideal S512x2 .f32 :=
  GcnHost.hostReadOut
    (GcnHost.pool g (GcnHost.hostAddRow (GcnHost.aggOf (GcnHost.normOf s d) s d (GcnHost.hostReluProd (GcnHost.aggOf (GcnHost.normOf s d) s d
      (GcnHost.hostReluProd (GcnHost.aggOf (GcnHost.normOf s d) s d (GcnHost.hostProd x w1)) b1 w2)) b2 w3)) b3))
    wl bl

theorem wholeHost_eq_netOf (x : FVec Ideal S50000x64 .f32) (w1 : FVec Ideal S64x64 .f32) (b1 : FVec Ideal S64 .f32) (w2 : FVec Ideal S64x64 .f32)
    (b2 : FVec Ideal S64 .f32) (w3 : FVec Ideal S64x64 .f32) (b3 : FVec Ideal S64 .f32) (wl : FVec Ideal S64x2 .f32)
    (bl : FVec Ideal S2 .f32) (e : IVec S2x800000 32) (g : IVec S50000 32) :
    GcnHost.wholeHost x w1 b1 w2 b2 w3 b3 wl bl e g = netOf x w1 b1 w2 b2 w3 b3 wl bl (GcnHost.srcOf e) (GcnHost.dstOf e) g := rfl

set_option maxRecDepth 8192 in
set_option maxHeartbeats 76800000 in
/-- The result buffer after the 185 operations, from any contents V: the network of V at the argument buffers and at
    the two buffers of message ends. Each operation's result is read at its own buffer and every other buffer is left
    as it was; the composed term is the network's, up to the names of its pieces and to the transports of a called
    function's values along equalities of buffer types that hold by computation (each is the identity). -/
theorem value_post (V : Valuation τ sig (Elt Ideal)) :
    after (post (F := Ideal)) V (Proc.devRef .tc main_v144) = netOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_v3)) (V (Proc.devRef .tc main_v6)) (V (Proc.devRef .tc main_arg10)) := by
  after_results_simp
  unfold netOf GcnHost.hostReadOut GcnHost.pool GcnHost.hostReluProd GcnHost.hostAddRow GcnHost.hostProd GcnHost.aggOf GcnHost.normOf GcnHost.dinvOf GcnHost.degOf GcnHost.wrapCol
  unfold TRef.toBuf TRef.ofBuf
  repeat rw [cast_eq]
  try (with_reducible rfl)

/-- The result buffer after all 192 operations, from any contents W: the network, with its dense pieces as host
    operations, of W at the eleven argument buffers. -/
theorem value (W : Valuation τ sig (Elt Ideal)) :
    after (ops (F := Ideal)) W (Proc.devRef .tc main_v144)
      = GcnHost.wholeHost (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  rw [ops_split, after_append, value_post, pre_v3, pre_v6, pre_arg0, pre_arg1, pre_arg2, pre_arg3, pre_arg4, pre_arg5, pre_arg6, pre_arg7, pre_arg8, pre_arg10, wholeHost_eq_netOf]

/-- On every device, from any memory with zero counters: every weakly fair execution of @main terminates with the
    result buffer at the network of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v144)
        = GcnHost.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v144).trans ((value (launchContents m c)).trans (wholeHost_eq _ _ _ _ _ _ _ _ _ _ _)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c)),
      (h c main_arg8).trans (keep_arg8 (launchContents m c)),
      (h c main_arg9).trans (keep_arg9 (launchContents m c)),
      (h c main_arg10).trans (keep_arg10 (launchContents m c))⟩)
    (raw m ρ)

end Cert.ReferenceIdeal.RefRun

end
-- ==== Proof.lean ====
/-
  A three-layer graph convolution over 50000 nodes and 800000 edges, followed by the mean over each of 512 graphs and a
  64 × 2 read-out: the kernel program against the plain reference, both read at the exact instance (floats are extended
  reals, every operation the exact one, a change of float format the identity).
  The two programs apply the SAME sparse host operations — the messages' ends from the edge list, the degree normalisation,
  gather · scale · accumulating scatter, the mean over each graph — and differ only in the dense pieces: the kernel program
  computes X · W, max(A + b, 0) · W, A + b and P · W + b block by block in five grid-launched regions (2000 rows at a time,
  the weights whole), the reference as whole-array contractions and broadcasts, and the kernel program computes the
  normalisation once where the reference computes it per layer. Block by block or whole, each dense piece is the same
  finite sum of products over the 64 features, index by index, so both programs end at ONE function of the eleven
  arguments (Cert.GcnHost.whole). No law is used that fails at an infinity: only sums of products, sums and maxima are
  compared term for term, so the finiteness of the inputs is never opened.
  The frames of the two kernel programs are the generated ones; the reference's frame is its run with the result dropped;
  the idealization rewrote no operation, so there is nothing to preserve.
-/
import proofs.«161394_j27771258536143_1_alg».proof.Defs
import proofs.«161394_j27771258536143_1_alg».proof.Proof.Gen.Kernel
import proofs.«161394_j27771258536143_1_alg».proof.Proof.Gen.Kernel.Frame
import proofs.«161394_j27771258536143_1_alg».proof.Proof.Gen.KernelIdeal
import proofs.«161394_j27771258536143_1_alg».proof.Proof.Gen.KernelIdeal.Frame
import proofs.«161394_j27771258536143_1_alg».proof.Proof.Gen.ReferenceIdeal
import proofs.«161394_j27771258536143_1_alg».proof.Proof.Gen.Pre_finite_inputs
import proofs.«161394_j27771258536143_1_alg».proof.Proof.KValue
import proofs.«161394_j27771258536143_1_alg».proof.Proof.RefRun

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefRun.run m ρ)

/-- Both programs end at the network of the arguments; the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7, e8, e9, e10⟩ := hagree c
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
